-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52_1)) (v1 : (c : Dev Cert.KernelIdeal.nD) → Buf (Elt Ideal) ((c.tc : Thread Cert.KernelIdeal.nD Cert.KernelIdeal.τ).loc Cert.KernelIdeal.main_v52_0)) (v2 : (c : Dev Cert.KernelIdeal.nD) → Buf (Elt Ideal) ((c.tc : Thread Cert.KernelIdeal.nD Cert.KernelIdeal.τ).loc Cert.KernelIdeal.main_v52_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_1) = v0 c
          ∧ r.2.mem ((c.tc : Thread Cert.KernelIdeal.nD Cert.KernelIdeal.τ).loc Cert.KernelIdeal.main_v52_0) = v1 c
          ∧ r.2.mem ((c.tc : Thread Cert.KernelIdeal.nD Cert.KernelIdeal.τ).loc Cert.KernelIdeal.main_v52_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S100000x32 : Shape := ⟨2, ![100000, 32]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg6 : FVec F S64x64 .f32) (main_arg7 : FVec F S64 .f32) (main_arg8 : FVec F S64x32 .f32) (main_arg9 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg8
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : IVec S1600000 32) (main_arg2 : IVec S1600000 32) (main_arg3 : FVec F S100000x32 .f32) (main_arg4 : FVec F S64x64 .f32) (main_arg5 : FVec F S64 .f32) (main_arg6 : FVec F S64x64 .f32) (main_arg7 : FVec F S64 .f32) (main_arg8 : FVec F S64x32 .f32) (main_arg9 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x32 .f32 := Host.absf main_arg3
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x64 : Shape := ⟨2, ![100000, 64]⟩
abbrev S1600000 : Shape := ⟨1, ![1600000]⟩
abbrev S100000x32 : Shape := ⟨2, ![100000, 32]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S4000x64 : Shape := ⟨2, ![4000, 64]⟩
abbrev S4000x1 : Shape := ⟨2, ![4000, 1]⟩
abbrev S1x32 : Shape := ⟨2, ![1, 32]⟩
abbrev S2000x64 : Shape := ⟨2, ![2000, 64]⟩
abbrev S2000x1 : Shape := ⟨2, ![2000, 1]⟩
abbrev S2000x32 : Shape := ⟨2, ![2000, 32]⟩

abbrev nBuf : Space → Nat
  | .hbm => 78
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S100000x32, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S_, .f32⟩
  | .hbm, ⟨42, _⟩ => ⟨S100000x64, .f32⟩
  | .hbm, ⟨43, _⟩ => ⟨S1600000x1, .i32⟩
  | .hbm, ⟨44, _⟩ => ⟨S100000x64, .f32⟩
  | .hbm, ⟨45, _⟩ => ⟨S1x64, .f32⟩
  | .hbm, ⟨46, _⟩ => ⟨S100000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S1x32, .f32⟩
  | .hbm, ⟨76, _⟩ => ⟨S100000x32, .f32⟩
  | .hbm, ⟨77, _⟩ => ⟨S100000x32, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S64x64, .f32⟩
  | .local _ .vmem, ⟨7, _⟩ => ⟨S1x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x1, .f32⟩
  | .local _ .vmem, ⟨13, _⟩ => ⟨S4000x1, .f32⟩
  | .local _ .vmem, ⟨14, _⟩ => ⟨S4000x1, .f32⟩
  | .local _ .vmem, ⟨15, _⟩ => ⟨S4000x1, .f32⟩
  | .local _ .vmem, ⟨16, _⟩ => ⟨S64x64, .f32⟩
  | .local _ .vmem, ⟨17, _⟩ => ⟨S1x64, .f32⟩
  | .local _ .vmem, ⟨18, _⟩ => ⟨S4000x64, .f32⟩
  | .local _ .vmem, ⟨19, _⟩ => ⟨S4000x64, .f32⟩
  | .local _ .vmem, ⟨20, _⟩ => ⟨S2000x64, .f32⟩
  | .local _ .vmem, ⟨21, _⟩ => ⟨S2000x64, .f32⟩
  | .local _ .vmem, ⟨22, _⟩ => ⟨S2000x1, .f32⟩
  | .local _ .vmem, ⟨23, _⟩ => ⟨S2000x1, .f32⟩
  | .local _ .vmem, ⟨24, _⟩ => ⟨S64x32, .f32⟩
  | .local _ .vmem, ⟨25, _⟩ => ⟨S1x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52_0 : Ref sig .tc := ⟨.hbm, 76, rfl⟩
abbrev main_v52_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  shapeCasts_S32_S1x32 : S32.ShapeCasts S1x32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S2000x64_S64x32_S2000x32_1_0_0_1_n_n_wf : DotDims.WF S2000x64 S64x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x32.size a ≤ S100000x32.size a
  hwx2_4 : ∀ i : grid2.Coords, EltTy.bits .f32 = 32 ∨ (Rect.block (s := S100000x32) S2000x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x32.size a ≤ S100000x32.size a
  hwx2_5 : ∀ i : grid2.Coords, EltTy.bits .f32 = 32 ∨ (Rect.block (s := S100000x32) S2000x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x32.size a ≤ S100000x32.size a
  hwx2_6 : ∀ i : grid2.Coords, EltTy.bits .f32 = 32 ∨ (Rect.block (s := S100000x32) S2000x32.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf

abbrev win0_0 : Pipeline.Window sig grid0 :=
  Pipeline.Window.ofSpec (Memref.whole main_v26) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S2000x32.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v52_0) S2000x32.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v52_1) S2000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S100000x32 : Shape := ⟨2, ![100000, 32]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S1x32 : Shape := ⟨2, ![1, 32]⟩

abbrev nBuf : Space → Nat
  | .hbm => 127
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S100000x32, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | .hbm, ⟨78, _⟩ => ⟨S100000x1, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S_, .f32⟩
  | .hbm, ⟨91, _⟩ => ⟨S100000x64, .f32⟩
  | .hbm, ⟨92, _⟩ => ⟨S1600000x1, .i32⟩
  | .hbm, ⟨93, _⟩ => ⟨S100000x64, .f32⟩
  | .hbm, ⟨94, _⟩ => ⟨S100000x1, .f32⟩
  | .hbm, ⟨95, _⟩ => ⟨S100000x64, .f32⟩
  | .hbm, ⟨96, _⟩ => ⟨S100000x64, .f32⟩
  | .hbm, ⟨97, _⟩ => ⟨S100000x32, .f32⟩
  | .hbm, ⟨98, _⟩ => ⟨S1x32, .f32⟩
  | .hbm, ⟨99, _⟩ => ⟨S100000x32, .f32⟩
  | .hbm, ⟨100, _⟩ => ⟨S100000x32, .f32⟩
  | .hbm, ⟨101, _⟩ => ⟨S100000x1, .f32⟩
  | .hbm, ⟨102, _⟩ => ⟨S100000x64, .f32⟩
  | .hbm, ⟨103, _⟩ => ⟨S100000x64, .f32⟩
  | .hbm, ⟨104, _⟩ => ⟨S_, .i32⟩
  | .hbm, ⟨105, _⟩ => ⟨S1600000, .i32⟩
  | .hbm, ⟨106, _⟩ => ⟨S1600000, .i1⟩
  | .hbm, ⟨107, _⟩ => ⟨S_, .i32⟩
  | .hbm, ⟨108, _⟩ => ⟨S1600000, .i32⟩
  | .hbm, ⟨109, _⟩ => ⟨S1600000, .i32⟩
  | .hbm, ⟨110, _⟩ => ⟨S1600000, .i32⟩
  | .hbm, ⟨111, _⟩ => ⟨S1600000x1, .i32⟩
  | .hbm, ⟨112, _⟩ => ⟨S1600000x64, .f32⟩
  | .hbm, ⟨113, _⟩ => ⟨S_, .f32⟩
  | .hbm, ⟨114, _⟩ => ⟨S100000x64, .f32⟩
  | .hbm, ⟨115, _⟩ => ⟨S1600000x1, .i32⟩
  | .hbm, ⟨116, _⟩ => ⟨S100000x64, .f32⟩
  | .hbm, ⟨117, _⟩ => ⟨S100000x1, .f32⟩
  | .hbm, ⟨118, _⟩ => ⟨S100000x64, .f32⟩
  | .hbm, ⟨119, _⟩ => ⟨S100000x64, .f32⟩
  | .hbm, ⟨120, _⟩ => ⟨S100000x32, .f32⟩
  | .hbm, ⟨121, _⟩ => ⟨S1x32, .f32⟩
  | .hbm, ⟨122, _⟩ => ⟨S100000x32, .f32⟩
  | .hbm, ⟨123, _⟩ => ⟨S100000x32, .f32⟩
  | .hbm, ⟨124, _⟩ => ⟨S100000x32, .f32⟩
  | .hbm, ⟨125, _⟩ => ⟨S100000x32, .f32⟩
  | .hbm, ⟨126, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_call0_cst : Ref sig .tc := ⟨.hbm, 75, rfl⟩
abbrev main_call0_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_c_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_c_12 : Ref sig .tc := ⟨.hbm, 104, rfl⟩
abbrev main_v78 : Ref sig .tc := ⟨.hbm, 105, rfl⟩
abbrev main_v79 : Ref sig .tc := ⟨.hbm, 106, rfl⟩
abbrev main_c_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_14 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Layers.lean ====
/-
  One layer of the graph convolution as a function of whole arrays, entry by entry, over the extended reals.

  Every layer first forms, for node r and output feature j,
      ( Σ_k  (agg[r,k] · din[r]) · W[k,j] )  +  b[j]
  where agg is the sum of the neighbours' (already out-degree-scaled) features, din[r] the node's in-degree factor,
  W the layer's weights and b its bias. The first layer applies tanh and scales by the out-degree factor dout[r];
  the second takes the maximum with zero and scales the same way; the last returns the affine value itself (the
  mean) and, beside it, mean + exp(mean) · eps (the sample).
  The arrays are taken in the shapes the kernel's blocks cut: the degree factors as columns [N,1], the bias as a
  row [1,D].
-/
import Idealize.ShloMosaic.PureOps.Ideal
import Idealize.ShloMosaic.Lib.ValueIdx

noncomputable section

namespace Cert.GraphConv

open Idealize.ShloMosaic Idealize.ShloMosaic.ValueIdx

/-- Node features, 64 wide. -/
abbrev SN64 : Shape := ⟨2, ![100000, 64]⟩
/-- Node features, 32 wide. -/
abbrev SN32 : Shape := ⟨2, ![100000, 32]⟩
/-- One number per node, as a column. -/
abbrev SN1 : Shape := ⟨2, ![100000, 1]⟩
abbrev SW64 : Shape := ⟨2, ![64, 64]⟩
abbrev SW32 : Shape := ⟨2, ![64, 32]⟩
abbrev SB64 : Shape := ⟨2, ![1, 64]⟩
abbrev SB32 : Shape := ⟨2, ![1, 32]⟩

/-- The affine value of node `r`, feature `j`, into 64 features. -/
def affine64 (agg : FVec Ideal SN64 .f32) (din : FVec Ideal SN1 .f32) (W : FVec Ideal SW64 .f32) (b : FVec Ideal SB64 .f32)
    (r : Fin 100000) (j : Fin 64) : EReal :=
  (∑ k : Fin 64, (agg (ix2 r k) * din (ix2 r (0 : Fin 1))) * W (ix2 k j)) + b (ix2 (0 : Fin 1) j)

/-- The affine value of node `r`, feature `j`, into 32 features. -/
def affine32 (agg : FVec Ideal SN64 .f32) (din : FVec Ideal SN1 .f32) (W : FVec Ideal SW32 .f32) (b : FVec Ideal SB32 .f32)
    (r : Fin 100000) (j : Fin 32) : EReal :=
  (∑ k : Fin 64, (agg (ix2 r k) * din (ix2 r (0 : Fin 1))) * W (ix2 k j)) + b (ix2 (0 : Fin 1) j)

/-- First layer: tanh of the affine value, scaled by the node's out-degree factor. -/
def layerTanh (agg : FVec Ideal SN64 .f32) (dout din : FVec Ideal SN1 .f32) (W : FVec Ideal SW64 .f32) (b : FVec Ideal SB64 .f32) :
    FVec Ideal SN64 .f32 :=
  fun i => Ideal.tanh (affine64 agg din W b (i 0) (i 1)) * dout (ix2 (i 0) (0 : Fin 1))

/-- Second layer: the positive part of the affine value, scaled by the node's out-degree factor. -/
def layerRelu (agg : FVec Ideal SN64 .f32) (dout din : FVec Ideal SN1 .f32) (W : FVec Ideal SW64 .f32) (b : FVec Ideal SB64 .f32) :
    FVec Ideal SN64 .f32 :=
  fun i => max (affine64 agg din W b (i 0) (i 1)) (Ideal.ofBits .f32 0x00000000#32) * dout (ix2 (i 0) (0 : Fin 1))

/-- Last layer, the mean: the affine value itself. -/
def layerMean (agg : FVec Ideal SN64 .f32) (din : FVec Ideal SN1 .f32) (W : FVec Ideal SW32 .f32) (b : FVec Ideal SB32 .f32) :
    FVec Ideal SN32 .f32 :=
  fun i => affine32 agg din W b (i 0) (i 1)

/-- Last layer, the sample: mean + exp(mean) · eps. -/
def layerSample (agg : FVec Ideal SN64 .f32) (din : FVec Ideal SN1 .f32) (W : FVec Ideal SW32 .f32) (b : FVec Ideal SB32 .f32)
    (eps : FVec Ideal SN32 .f32) : FVec Ideal SN32 .f32 :=
  fun i => affine32 agg din W b (i 0) (i 1) + Ideal.exp (affine32 agg din W b (i 0) (i 1)) * eps i

end Cert.GraphConv

end
-- ==== Proof.RefLayers.lean ====
/-
  The reference's stages, layer by layer, are the layer functions of their operands.

  Read at node r and feature j, the reference's chain  multiply by the in-degree column · matrix product · add the
  bias row · activation · multiply by the out-degree column  is, entry by entry, the sum over the 64 input features
  of (agg[r,k] · din[r]) · W[k,j], plus b[j], through the activation, times dout[r]: the host's matrix product at an
  entry is that sum, and every broadcast only repeats a column's or a row's entry. The reference evaluates the last
  layer twice (once as the mean, once as the log-deviation), on the same operands: the two are one array.
-/
import proofs.«143272_j26268019983050_1_alg».proof.Proof.Gen.ReferenceIdeal.Read
import proofs.«143272_j26268019983050_1_alg».proof.Proof.Layers

noncomputable section

namespace Cert.ReferenceIdeal.RefValue

open Cert.ReferenceIdeal Cert.ReferenceIdeal.Read Cert.GraphConv Idealize.ShloMosaic Idealize.ShloMosaic.ValueIdx

/-! ## Where each layout operation and each matrix product reads its operands

Node r, feature j; k runs over the 64 input features. A column [N,1] is read at (r,0), a bias row [1,D] at (0,j),
the product's left operand at (r,k) and its right operand at (k,j). -/

theorem lidx1 (r : Fin 100000) (j : Fin 64) (k : Fin 64) : lidx_main_v29 (ix2 r j) k = ix2 r k :=
  funext fun a => Fin.ext (by match a with | ⟨0, _⟩ => rfl | ⟨1, _⟩ => rfl)
theorem ridx1 (r : Fin 100000) (j : Fin 64) (k : Fin 64) : ridx_main_v29 (ix2 r j) k = ix2 k j :=
  funext fun a => Fin.ext (by match a with | ⟨0, _⟩ => rfl | ⟨1, _⟩ => rfl)
theorem din1 (r : Fin 100000) (j : Fin 64) : idx_main_v27 (ix2 r j) = ix2 r (0 : Fin 1) :=
  funext fun a => Fin.ext (by match a with | ⟨0, _⟩ => rfl | ⟨1, _⟩ => rfl)
theorem bias1 (r : Fin 100000) (j : Fin 64) : idx_main_v31 (ix2 r j) = ix2 (0 : Fin 1) j :=
  funext fun a => Fin.ext (by match a with | ⟨0, _⟩ => rfl | ⟨1, _⟩ => rfl)
theorem dout1 (r : Fin 100000) (j : Fin 64) : idx_main_v35 (ix2 r j) = ix2 r (0 : Fin 1) :=
  funext fun a => Fin.ext (by match a with | ⟨0, _⟩ => rfl | ⟨1, _⟩ => rfl)
theorem lidx2 (r : Fin 100000) (j : Fin 64) (k : Fin 64) : lidx_main_v50 (ix2 r j) k = ix2 r k :=
  funext fun a => Fin.ext (by match a with | ⟨0, _⟩ => rfl | ⟨1, _⟩ => rfl)
theorem ridx2 (r : Fin 100000) (j : Fin 64) (k : Fin 64) : ridx_main_v50 (ix2 r j) k = ix2 k j :=
  funext fun a => Fin.ext (by match a with | ⟨0, _⟩ => rfl | ⟨1, _⟩ => rfl)
theorem din2 (r : Fin 100000) (j : Fin 64) : idx_main_v48 (ix2 r j) = ix2 r (0 : Fin 1) :=
  funext fun a => Fin.ext (by match a with | ⟨0, _⟩ => rfl | ⟨1, _⟩ => rfl)
theorem bias2 (r : Fin 100000) (j : Fin 64) : idx_main_v52 (ix2 r j) = ix2 (0 : Fin 1) j :=
  funext fun a => Fin.ext (by match a with | ⟨0, _⟩ => rfl | ⟨1, _⟩ => rfl)
theorem dout2 (r : Fin 100000) (j : Fin 64) : idx_main_v56 (ix2 r j) = ix2 r (0 : Fin 1) :=
  funext fun a => Fin.ext (by match a with | ⟨0, _⟩ => rfl | ⟨1, _⟩ => rfl)
theorem lidx3 (r : Fin 100000) (j : Fin 32) (k : Fin 64) : lidx_main_v71 (ix2 r j) k = ix2 r k :=
  funext fun a => Fin.ext (by match a with | ⟨0, _⟩ => rfl | ⟨1, _⟩ => rfl)
theorem ridx3 (r : Fin 100000) (j : Fin 32) (k : Fin 64) : ridx_main_v71 (ix2 r j) k = ix2 k j :=
  funext fun a => Fin.ext (by match a with | ⟨0, _⟩ => rfl | ⟨1, _⟩ => rfl)
theorem din3 (r : Fin 100000) (j : Fin 64) : idx_main_v69 (ix2 r j) = ix2 r (0 : Fin 1) :=
  funext fun a => Fin.ext (by match a with | ⟨0, _⟩ => rfl | ⟨1, _⟩ => rfl)
theorem bias3 (r : Fin 100000) (j : Fin 32) : idx_main_v73 (ix2 r j) = ix2 (0 : Fin 1) j :=
  funext fun a => Fin.ext (by match a with | ⟨0, _⟩ => rfl | ⟨1, _⟩ => rfl)

/-! ## The three layers -/

/-- The first layer: the reference's tanh layer, already scaled for the next gather, is `layerTanh` of the first
    neighbour sum, the two degree columns, the weights and the bias row. -/
theorem layer1_eq (x0 : FVec Ideal S100000x64 .f32) (x1 x2 : IVec S1600000 32) (x4 : FVec Ideal S64x64 .f32) (x5 : FVec Ideal S64 .f32) :
    val_main_v36 (F := Ideal) x0 x1 x2 x4 x5
      = layerTanh (val_main_v25 (F := Ideal) x0 x1 x2) (val_main_v13 (F := Ideal) x1) (val_main_v26 (F := Ideal) x2) x4 (val_main_v30 (F := Ideal) x5) := by
  funext i
  obtain ⟨r, j, rfl⟩ : ∃ (r : Fin 100000) (j : Fin 64), i = ix2 r j := ⟨i 0, i 1, eq_ix2 i⟩
  rw [val_main_v36_apply, val_main_v33_apply, val_main_v32_apply, val_main_v29_apply, val_main_v31_apply, val_main_v35_apply,
    bias1, dout1]
  have hsum : (∑ k : Fin 64, val_main_v28 (F := Ideal) x0 x1 x2 (lidx_main_v29 (ix2 r j) k) * x4 (ridx_main_v29 (ix2 r j) k))
      = ∑ k : Fin 64, (val_main_v25 (F := Ideal) x0 x1 x2 (ix2 r k) * val_main_v26 (F := Ideal) x2 (ix2 r (0 : Fin 1))) * x4 (ix2 k j) :=
    Finset.sum_congr rfl fun k _ => by
      rw [lidx1, ridx1, val_main_v28_apply, val_main_v27_apply, din1]; rfl
  rw [hsum]
  have hcol : val_main_v34 (F := Ideal) x1 = val_main_v13 (F := Ideal) x1 := rfl
  rw [hcol]
  unfold layerTanh affine64
  simp only [Ideal.mulf_def, Ideal.addf_def, Ideal.hostUnary_tanh_def]

/-- The second layer: the reference's relu layer, already scaled for the next gather, is `layerRelu` of the second
    neighbour sum. -/
theorem layer2_eq (x0 : FVec Ideal S100000x64 .f32) (x1 x2 : IVec S1600000 32) (x4 : FVec Ideal S64x64 .f32) (x5 : FVec Ideal S64 .f32)
    (x6 : FVec Ideal S64x64 .f32) (x7 : FVec Ideal S64 .f32) :
    val_main_v57 (F := Ideal) x0 x1 x2 x4 x5 x6 x7
      = layerRelu (val_main_v46 (F := Ideal) x0 x1 x2 x4 x5) (val_main_v13 (F := Ideal) x1) (val_main_v26 (F := Ideal) x2) x6 (val_main_v51 (F := Ideal) x7) := by
  funext i
  obtain ⟨r, j, rfl⟩ : ∃ (r : Fin 100000) (j : Fin 64), i = ix2 r j := ⟨i 0, i 1, eq_ix2 i⟩
  rw [val_main_v57_apply, val_main_v54_apply, val_main_v53_apply, val_main_v50_apply, val_main_v52_apply, val_main_v56_apply,
    val_main_call0_v0_apply, val_main_call0_cst_apply, bias2, dout2]
  have hsum : (∑ k : Fin 64, val_main_v49 (F := Ideal) x0 x1 x2 x4 x5 (lidx_main_v50 (ix2 r j) k) * x6 (ridx_main_v50 (ix2 r j) k))
      = ∑ k : Fin 64, (val_main_v46 (F := Ideal) x0 x1 x2 x4 x5 (ix2 r k) * val_main_v26 (F := Ideal) x2 (ix2 r (0 : Fin 1))) * x6 (ix2 k j) :=
    Finset.sum_congr rfl fun k _ => by
      rw [lidx2, ridx2, val_main_v49_apply, val_main_v48_apply, din2]; rfl
  rw [hsum]
  have hcol : val_main_v55 (F := Ideal) x1 = val_main_v13 (F := Ideal) x1 := rfl
  rw [hcol]
  unfold layerRelu affine64
  simp only [Ideal.mulf_def, Ideal.addf_def, Ideal.maximumf_def, Ideal.ofBits_def]

/-- The last layer's affine value (the reference's `z_mean`) is `layerMean` of the third neighbour sum. -/
theorem mean_eq (x0 : FVec Ideal S100000x64 .f32) (x1 x2 : IVec S1600000 32) (x4 : FVec Ideal S64x64 .f32) (x5 : FVec Ideal S64 .f32)
    (x6 : FVec Ideal S64x64 .f32) (x7 : FVec Ideal S64 .f32) (x8 : FVec Ideal S64x32 .f32) (x9 : FVec Ideal S32 .f32) :
    val_main_v74 (F := Ideal) x0 x1 x2 x4 x5 x6 x7 x8 x9
      = layerMean (val_main_v67 (F := Ideal) x0 x1 x2 x4 x5 x6 x7) (val_main_v26 (F := Ideal) x2) x8 (val_main_v72 (F := Ideal) x9) := by
  funext i
  obtain ⟨r, j, rfl⟩ : ∃ (r : Fin 100000) (j : Fin 32), i = ix2 r j := ⟨i 0, i 1, eq_ix2 i⟩
  rw [val_main_v74_apply, val_main_v71_apply, val_main_v73_apply, bias3]
  have hsum : (∑ k : Fin 64, val_main_v70 (F := Ideal) x0 x1 x2 x4 x5 x6 x7 (lidx_main_v71 (ix2 r j) k) * x8 (ridx_main_v71 (ix2 r j) k))
      = ∑ k : Fin 64, (val_main_v67 (F := Ideal) x0 x1 x2 x4 x5 x6 x7 (ix2 r k) * val_main_v26 (F := Ideal) x2 (ix2 r (0 : Fin 1))) * x8 (ix2 k j) :=
    Finset.sum_congr rfl fun k _ => by
      rw [lidx3, ridx3, val_main_v70_apply, val_main_v69_apply, din3]; rfl
  rw [hsum]
  unfold layerMean affine32
  simp only [Ideal.addf_def]

/-- The reference computes the last layer a second time, as the log-deviation, from the same operands: the same array. -/
theorem logdev_eq_mean (x0 : FVec Ideal S100000x64 .f32) (x1 x2 : IVec S1600000 32) (x4 : FVec Ideal S64x64 .f32) (x5 : FVec Ideal S64 .f32)
    (x6 : FVec Ideal S64x64 .f32) (x7 : FVec Ideal S64 .f32) (x8 : FVec Ideal S64x32 .f32) (x9 : FVec Ideal S32 .f32) :
    val_main_v94 (F := Ideal) x0 x1 x2 x4 x5 x6 x7 x8 x9 = val_main_v74 (F := Ideal) x0 x1 x2 x4 x5 x6 x7 x8 x9 := rfl

/-- The sample: mean + exp(log-deviation) · eps, the log-deviation being the mean. -/
theorem sample_eq (x0 : FVec Ideal S100000x64 .f32) (x1 x2 : IVec S1600000 32) (x3 : FVec Ideal S100000x32 .f32) (x4 : FVec Ideal S64x64 .f32) (x5 : FVec Ideal S64 .f32)
    (x6 : FVec Ideal S64x64 .f32) (x7 : FVec Ideal S64 .f32) (x8 : FVec Ideal S64x32 .f32) (x9 : FVec Ideal S32 .f32) :
    val_main_v97 (F := Ideal) x0 x1 x2 x3 x4 x5 x6 x7 x8 x9
      = layerSample (val_main_v67 (F := Ideal) x0 x1 x2 x4 x5 x6 x7) (val_main_v26 (F := Ideal) x2) x8 (val_main_v72 (F := Ideal) x9) x3 := by
  funext i
  rw [val_main_v97_apply, val_main_v96_apply, val_main_v95_apply, logdev_eq_mean, mean_eq]
  unfold layerSample layerMean
  simp only [Ideal.mulf_def, Ideal.addf_def, Ideal.hostUnary_exp_def]

end Cert.ReferenceIdeal.RefValue

end
-- ==== Proof.KernelRun.lean ====
/-
  The kernel program's run with its two result arrays NAMED: every weakly fair execution of the idealized kernel
  program terminates, nothing faulting, and ends with the sample array and the mean array holding what the fold of the
  program's six segments (three stretches of host operations, three block-tiled regions) leaves in them, the ten
  argument arrays as launched. The proof is the frame's: the same launch over the same segments, the last boundary's
  contents read back for the two result buffers as well as for the arguments.
-/
import proofs.«143272_j26268019983050_1_alg».proof.Proof.KernelIdealFrame

-- membership in a rectangle of production extents (`View.cover_of_tiled`): the elaborator's structural look
-- recurses once per coordinate of the long axes
set_option maxRecDepth 16384

noncomputable section

namespace Cert.KernelIdeal.Run

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffers read at the last boundary's contents. -/
theorem run_boundary : θ_run defs (onTc (τ := τ) (main (F := F))) ⟨m, fun _ => 0, ρ⟩ (fun r => ∀ c : Dev nD,
      r.2.mem ((c.tc : Thread nD τ).loc main_v52_1) = W6 m ρ c (Proc.devRef .tc main_v52_1)
      ∧ r.2.mem ((c.tc : Thread nD τ).loc main_v52_0) = W6 m ρ c (Proc.devRef .tc main_v52_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52_1 (by decide)),
       h c _ (mem_uc main_v52_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Run

end
-- ==== Proof.KernelPayload.lean ====
/-
  The three kernel bodies' stored values, read at one entry of the block, over the extended reals.

  A block holds 4000 (first two layers) or 2000 (last layer) consecutive nodes. At row p, feature q of the block
  every body forms  Σ_k (agg[p,k] · din[p]) · W[k,q] + b[q]:  the matrix unit's product into a zero accumulator is
  that sum, the roundings to bf16 on the way in are the identity on extended reals, the column [rows,1] of degree
  factors and the bias row [1,D] are spread over the block by broadcasts. The first body then applies tanh and
  multiplies by dout[p], the second takes the maximum with zero and multiplies by dout[p], the third stores the affine
  value and, beside it, value + exp(value) · eps[p,q].
-/
import proofs.«143272_j26268019983050_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## The matrix product into a zero accumulator is a sum over the 64 input features -/

theorem matmul64_lhs0 (i : S4000x64.Idx) (c : dot_S4000x64_S64x64_S4000x64_1_0_0_1_n_n.contr.Idx) : (dot_S4000x64_S64x64_S4000x64_1_0_0_1_n_n.lhsIdx i c 0).val = (i 0).val := by
  unfold DotDims.lhsIdx
  rw [dif_neg (show ¬(0 : Fin S4000x64.rank) ∈ dot_S4000x64_S64x64_S4000x64_1_0_0_1_n_n.lhsBatch by decide), dif_pos (show (0 : Fin S4000x64.rank) ∈ dot_S4000x64_S64x64_S4000x64_1_0_0_1_n_n.lhsNonContracting by decide)]
  rfl
theorem matmul64_rhs1 (i : S4000x64.Idx) (c : dot_S4000x64_S64x64_S4000x64_1_0_0_1_n_n.contr.Idx) : (dot_S4000x64_S64x64_S4000x64_1_0_0_1_n_n.rhsIdx i c 1).val = (i 1).val := by
  unfold DotDims.rhsIdx
  rw [dif_neg (show ¬(1 : Fin S64x64.rank) ∈ dot_S4000x64_S64x64_S4000x64_1_0_0_1_n_n.rhsBatch by decide), dif_pos (show (1 : Fin S64x64.rank) ∈ dot_S4000x64_S64x64_S4000x64_1_0_0_1_n_n.rhsNonContracting by decide)]
  rfl

/-- Row `p`, column `q` of the product into a zero accumulator: the sum over the 64 contracted features. -/
theorem matmul64_apply (lhs : FVec Ideal S4000x64 .bf16) (rhs : FVec Ideal S64x64 .bf16) (p : Fin 4000) (q : Fin 64) :
    FloatOps.matmul dot_S4000x64_S64x64_S4000x64_1_0_0_1_n_n none lhs rhs (constant S4000x64 .f32 0x00000000#32) (ix2 p q)
      = ∑ k : Fin 64, lhs (ix2 p k) * rhs (ix2 k q) := by
  rw [Ideal.matmul_constant_zero_apply, ← Equiv.sum_comp (contrEquiv1 dot_S4000x64_S64x64_S4000x64_1_0_0_1_n_n 64 rfl rfl).symm]
  refine Finset.sum_congr rfl fun k _ => ?_
  have hk := contrEquiv1_symm_val dot_S4000x64_S64x64_S4000x64_1_0_0_1_n_n 64 rfl rfl k
  have el : dot_S4000x64_S64x64_S4000x64_1_0_0_1_n_n.lhsIdx (ix2 p q) ((contrEquiv1 dot_S4000x64_S64x64_S4000x64_1_0_0_1_n_n 64 rfl rfl).symm k) = ix2 p k :=
    funext fun a => Fin.ext (by
      match a with
      | ⟨0, _⟩ => exact matmul64_lhs0 _ _
      | ⟨1, _⟩ => exact (dot_S4000x64_S64x64_S4000x64_1_0_0_1_n_n.lhsIdx_val_of_single rfl _ _).trans hk)
  have er : dot_S4000x64_S64x64_S4000x64_1_0_0_1_n_n.rhsIdx (ix2 p q) ((contrEquiv1 dot_S4000x64_S64x64_S4000x64_1_0_0_1_n_n 64 rfl rfl).symm k) = ix2 k q :=
    funext fun a => Fin.ext (by
      match a with
      | ⟨0, _⟩ => exact (dot_S4000x64_S64x64_S4000x64_1_0_0_1_n_n.rhsIdx_val_of_single rfl _ _).trans hk
      | ⟨1, _⟩ => exact matmul64_rhs1 _ _)
  rw [el, er]

theorem matmul32_lhs0 (i : S2000x32.Idx) (c : dot_S2000x64_S64x32_S2000x32_1_0_0_1_n_n.contr.Idx) : (dot_S2000x64_S64x32_S2000x32_1_0_0_1_n_n.lhsIdx i c 0).val = (i 0).val := by
  unfold DotDims.lhsIdx
  rw [dif_neg (show ¬(0 : Fin S2000x64.rank) ∈ dot_S2000x64_S64x32_S2000x32_1_0_0_1_n_n.lhsBatch by decide), dif_pos (show (0 : Fin S2000x64.rank) ∈ dot_S2000x64_S64x32_S2000x32_1_0_0_1_n_n.lhsNonContracting by decide)]
  rfl
theorem matmul32_rhs1 (i : S2000x32.Idx) (c : dot_S2000x64_S64x32_S2000x32_1_0_0_1_n_n.contr.Idx) : (dot_S2000x64_S64x32_S2000x32_1_0_0_1_n_n.rhsIdx i c 1).val = (i 1).val := by
  unfold DotDims.rhsIdx
  rw [dif_neg (show ¬(1 : Fin S64x32.rank) ∈ dot_S2000x64_S64x32_S2000x32_1_0_0_1_n_n.rhsBatch by decide), dif_pos (show (1 : Fin S64x32.rank) ∈ dot_S2000x64_S64x32_S2000x32_1_0_0_1_n_n.rhsNonContracting by decide)]
  rfl

/-- Row `p`, column `q` of the product into a zero accumulator: the sum over the 64 contracted features. -/
theorem matmul32_apply (lhs : FVec Ideal S2000x64 .bf16) (rhs : FVec Ideal S64x32 .bf16) (p : Fin 2000) (q : Fin 32) :
    FloatOps.matmul dot_S2000x64_S64x32_S2000x32_1_0_0_1_n_n none lhs rhs (constant S2000x32 .f32 0x00000000#32) (ix2 p q)
      = ∑ k : Fin 64, lhs (ix2 p k) * rhs (ix2 k q) := by
  rw [Ideal.matmul_constant_zero_apply, ← Equiv.sum_comp (contrEquiv1 dot_S2000x64_S64x32_S2000x32_1_0_0_1_n_n 64 rfl rfl).symm]
  refine Finset.sum_congr rfl fun k _ => ?_
  have hk := contrEquiv1_symm_val dot_S2000x64_S64x32_S2000x32_1_0_0_1_n_n 64 rfl rfl k
  have el : dot_S2000x64_S64x32_S2000x32_1_0_0_1_n_n.lhsIdx (ix2 p q) ((contrEquiv1 dot_S2000x64_S64x32_S2000x32_1_0_0_1_n_n 64 rfl rfl).symm k) = ix2 p k :=
    funext fun a => Fin.ext (by
      match a with
      | ⟨0, _⟩ => exact matmul32_lhs0 _ _
      | ⟨1, _⟩ => exact (dot_S2000x64_S64x32_S2000x32_1_0_0_1_n_n.lhsIdx_val_of_single rfl _ _).trans hk)
  have er : dot_S2000x64_S64x32_S2000x32_1_0_0_1_n_n.rhsIdx (ix2 p q) ((contrEquiv1 dot_S2000x64_S64x32_S2000x32_1_0_0_1_n_n 64 rfl rfl).symm k) = ix2 k q :=
    funext fun a => Fin.ext (by
      match a with
      | ⟨0, _⟩ => exact (dot_S2000x64_S64x32_S2000x32_1_0_0_1_n_n.rhsIdx_val_of_single rfl _ _).trans hk
      | ⟨1, _⟩ => exact matmul32_rhs1 _ _)
  rw [el, er]

/-! ## A column of per-row numbers spread over the features -/

/-- A `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stored values at row `p`, feature `q` of the block -/

/-- First layer's body: tanh of the affine value, times the row's out-degree factor. -/
theorem pay_tanh_apply (x0 : Vec Ideal S4000x64 .f32) (x1 x2 : Vec Ideal S4000x1 .f32) (x3 : Vec Ideal S64x64 .f32) (x4 : Vec Ideal S1x64 .f32)
    (p : Fin 4000) (q : Fin 64) :
    k0_pay1 x0 x1 x2 x3 x4 (ix2 p q)
      = Ideal.tanh ((∑ k : Fin 64, (x0 (ix2 p k) * x2 (ix2 p (0 : Fin 1))) * x3 (ix2 k q)) + x4 (ix2 (0 : Fin 1) q)) * x1 (ix2 p (0 : Fin 1)) := by
  unfold k0_pay1
  simp only [shapeCast_self]
  show Ideal.tanh (FloatOps.matmul (F := Ideal) dot_S4000x64_S64x64_S4000x64_1_0_0_1_n_n none
        (truncf (F := Ideal) FTy.bf16 (mulf (F := Ideal) x0 (broadcastTo S4000x64 x2 broadcasts_S4000x1_S4000x64)) bitsLt_bf16_f32)
        (truncf (F := Ideal) FTy.bf16 x3 bitsLt_bf16_f32) (constant (F := Ideal) S4000x64 FTy.f32 0x00000000#32) (ix2 p q)
      + broadcastTo S4000x64 x4 broadcasts_S1x64_S4000x64 (ix2 p q)) * broadcastTo S4000x64 x1 broadcasts_S4000x1_S4000x64 (ix2 p q) = _
  rw [matmul64_apply, broadcastTo_1b_ab_apply, broadcastTo_a1_ab_apply]
  refine congrArg (fun s => Ideal.tanh (s + x4 (ix2 (0 : Fin 1) q)) * x1 (ix2 p (0 : Fin 1))) (Finset.sum_congr rfl fun k _ => ?_)
  show (x0 (ix2 p k) * broadcastTo S4000x64 x2 broadcasts_S4000x1_S4000x64 (ix2 p k)) * x3 (ix2 k q) = _
  rw [broadcastTo_a1_ab_apply]

/-- Second layer's body: the maximum of the affine value and zero, times the row's out-degree factor. -/
theorem pay_relu_apply (x0 : Vec Ideal S4000x64 .f32) (x1 x2 : Vec Ideal S4000x1 .f32) (x3 : Vec Ideal S64x64 .f32) (x4 : Vec Ideal S1x64 .f32)
    (p : Fin 4000) (q : Fin 64) :
    k1_pay1 x0 x1 x2 x3 x4 (ix2 p q)
      = max ((∑ k : Fin 64, (x0 (ix2 p k) * x2 (ix2 p (0 : Fin 1))) * x3 (ix2 k q)) + x4 (ix2 (0 : Fin 1) q)) (Ideal.ofBits .f32 0x00000000#32)
          * x1 (ix2 p (0 : Fin 1)) := by
  unfold k1_pay1
  simp only [shapeCast_self]
  show max (FloatOps.matmul (F := Ideal) dot_S4000x64_S64x64_S4000x64_1_0_0_1_n_n none
        (truncf (F := Ideal) FTy.bf16 (mulf (F := Ideal) x0 (broadcastTo S4000x64 x2 broadcasts_S4000x1_S4000x64)) bitsLt_bf16_f32)
        (truncf (F := Ideal) FTy.bf16 x3 bitsLt_bf16_f32) (constant (F := Ideal) S4000x64 FTy.f32 0x00000000#32) (ix2 p q)
      + broadcastTo S4000x64 x4 broadcasts_S1x64_S4000x64 (ix2 p q)) (Ideal.ofBits .f32 0x00000000#32)
        * broadcastTo S4000x64 x1 broadcasts_S4000x1_S4000x64 (ix2 p q) = _
  rw [matmul64_apply, broadcastTo_1b_ab_apply, broadcastTo_a1_ab_apply]
  refine congrArg (fun s => max (s + x4 (ix2 (0 : Fin 1) q)) (Ideal.ofBits .f32 0x00000000#32) * x1 (ix2 p (0 : Fin 1))) (Finset.sum_congr rfl fun k _ => ?_)
  show (x0 (ix2 p k) * broadcastTo S4000x64 x2 broadcasts_S4000x1_S4000x64 (ix2 p k)) * x3 (ix2 k q) = _
  rw [broadcastTo_a1_ab_apply]

/-- Last layer's body, first store: the affine value. -/
theorem pay_mean_apply (x0 : Vec Ideal S2000x64 .f32) (x1 : Vec Ideal S2000x1 .f32) (x2 : Vec Ideal S64x32 .f32) (x3 : Vec Ideal S1x32 .f32)
    (p : Fin 2000) (q : Fin 32) :
    k2_pay1 x0 x1 x2 x3 (ix2 p q)
      = (∑ k : Fin 64, (x0 (ix2 p k) * x1 (ix2 p (0 : Fin 1))) * x2 (ix2 k q)) + x3 (ix2 (0 : Fin 1) q) := by
  unfold k2_pay1
  simp only [shapeCast_self]
  show FloatOps.matmul (F := Ideal) dot_S2000x64_S64x32_S2000x32_1_0_0_1_n_n none
        (truncf (F := Ideal) FTy.bf16 (mulf (F := Ideal) x0 (broadcastTo S2000x64 x1 broadcasts_S2000x1_S2000x64)) bitsLt_bf16_f32)
        (truncf (F := Ideal) FTy.bf16 x2 bitsLt_bf16_f32) (constant (F := Ideal) S2000x32 FTy.f32 0x00000000#32) (ix2 p q)
      + broadcastTo S2000x32 x3 broadcasts_S1x32_S2000x32 (ix2 p q) = _
  rw [matmul32_apply, broadcastTo_1b_ab_apply]
  refine congrArg (fun s => s + x3 (ix2 (0 : Fin 1) q)) (Finset.sum_congr rfl fun k _ => ?_)
  show (x0 (ix2 p k) * broadcastTo S2000x64 x1 broadcasts_S2000x1_S2000x64 (ix2 p k)) * x2 (ix2 k q) = _
  rw [broadcastTo_a1_ab_apply]

/-- Last layer's body, second store: the affine value plus its exponential times the noise entry. -/
theorem pay_sample_apply (x0 : Vec Ideal S2000x64 .f32) (x1 : Vec Ideal S2000x1 .f32) (x2 : Vec Ideal S64x32 .f32) (x3 : Vec Ideal S1x32 .f32)
    (x4 : Vec Ideal S2000x32 .f32) (p : Fin 2000) (q : Fin 32) :
    k2_pay2 x0 x1 x2 x3 x4 (ix2 p q)
      = ((∑ k : Fin 64, (x0 (ix2 p k) * x1 (ix2 p (0 : Fin 1))) * x2 (ix2 k q)) + x3 (ix2 (0 : Fin 1) q))
        + Ideal.exp ((∑ k : Fin 64, (x0 (ix2 p k) * x1 (ix2 p (0 : Fin 1))) * x2 (ix2 k q)) + x3 (ix2 (0 : Fin 1) q)) * x4 (ix2 p q) := by
  unfold k2_pay2
  show k2_pay1 x0 x1 x2 x3 (ix2 p q) + Ideal.exp (k2_pay1 x0 x1 x2 x3 (ix2 p q)) * x4 (ix2 p q) = _
  rw [pay_mean_apply]

end Cert.KernelIdeal.Body

end
-- ==== Proof.KernelRegion0.lean ====
/-
  The array the first region leaves behind, as one function of the arrays it finds.

  The region cuts the node axis into blocks of consecutive rows; at each point it loads the block's rows of the
  neighbour sum and of the degree columns, the whole weight matrix and the bias row, and stores the body's value for
  those rows. Entry (p, q) of the stored block is the layer function's entry at node (block start + p), feature q,
  because every input block is read at the same rows the output block is written to; and every node lies in exactly
  the block its number divided by the block height names, so the blocks cover the array.
-/
import proofs.«143272_j26268019983050_1_alg».proof.Proof.KernelIdealFrame
import proofs.«143272_j26268019983050_1_alg».proof.Proof.KernelPayload
import proofs.«143272_j26268019983050_1_alg».proof.Proof.Layers
import Idealize.ShloMosaic.Lib.Pipeline.Value

noncomputable section

namespace Cert.KernelIdeal.Region0

open Cert.KernelIdeal Cert.KernelIdeal.Gen Cert.KernelIdeal.GenP Cert.KernelIdeal.Body Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The first region: 25 blocks of 4000 nodes, the tanh layer -/

/-- The printed index maps of this region, decided over its 25 points: the three row-tiled inputs move with the
    output's block of 4000 rows, the weights and the bias row stay, and the output's block is the point's number. -/
theorem idx0 : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of point `t`'s block is node `4000 t + p`. -/
def node0 (t : Fin cfg0.N) (p : Fin 4000) : Fin 100000 :=
  ⟨t.val * 4000 + p.val, by have h1 := t.isLt; have h2 := p.isLt; have h3 : cfg0.N = 25 := N_0; omega⟩

/-- Where an entry of each window's block sits in the window's array. -/
theorem emb0_0 (t : Fin cfg0.N) (p : Fin 4000) (k : Fin 64) : ((cfg0.win 0).blk t).view.emb (ix2 p k) = ix2 (node0 t p) k := by
  obtain ⟨e00, e01, e10, e11, e20, e21, e30, e31, e40, e41, e50, e51⟩ := idx0 t
  funext a; apply Fin.ext
  match a with
  | ⟨0, _⟩ => show win0_0.index t (0 : Fin 2) * 4000 + 1 * p.val = t.val * 4000 + p.val; omega
  | ⟨1, _⟩ => show win0_0.index t (1 : Fin 2) * 64 + 1 * k.val = k.val; omega
theorem emb0_1 (t : Fin cfg0.N) (p : Fin 4000) (z : Fin 1) : ((cfg0.win 1).blk t).view.emb (ix2 p z) = ix2 (node0 t p) z := by
  obtain ⟨e00, e01, e10, e11, e20, e21, e30, e31, e40, e41, e50, e51⟩ := idx0 t
  funext a; apply Fin.ext
  match a with
  | ⟨0, _⟩ => show win0_1.index t (0 : Fin 2) * 4000 + 1 * p.val = t.val * 4000 + p.val; omega
  | ⟨1, _⟩ => show win0_1.index t (1 : Fin 2) * 1 + 1 * z.val = z.val; omega
theorem emb0_2 (t : Fin cfg0.N) (p : Fin 4000) (z : Fin 1) : ((cfg0.win 2).blk t).view.emb (ix2 p z) = ix2 (node0 t p) z := by
  obtain ⟨e00, e01, e10, e11, e20, e21, e30, e31, e40, e41, e50, e51⟩ := idx0 t
  funext a; apply Fin.ext
  match a with
  | ⟨0, _⟩ => show win0_2.index t (0 : Fin 2) * 4000 + 1 * p.val = t.val * 4000 + p.val; omega
  | ⟨1, _⟩ => show win0_2.index t (1 : Fin 2) * 1 + 1 * z.val = z.val; omega
theorem emb0_3 (t : Fin cfg0.N) (k : Fin 64) (q : Fin 64) : ((cfg0.win 3).blk t).view.emb (ix2 k q) = ix2 k q := by
  obtain ⟨e00, e01, e10, e11, e20, e21, e30, e31, e40, e41, e50, e51⟩ := idx0 t
  funext a; apply Fin.ext
  match a with
  | ⟨0, _⟩ => show win0_3.index t (0 : Fin 2) * 64 + 1 * k.val = k.val; omega
  | ⟨1, _⟩ => show win0_3.index t (1 : Fin 2) * 64 + 1 * q.val = q.val; omega
theorem emb0_4 (t : Fin cfg0.N) (z : Fin 1) (q : Fin 64) : ((cfg0.win 4).blk t).view.emb (ix2 z q) = ix2 z q := by
  obtain ⟨e00, e01, e10, e11, e20, e21, e30, e31, e40, e41, e50, e51⟩ := idx0 t
  funext a; apply Fin.ext
  match a with
  | ⟨0, _⟩ => show win0_4.index t (0 : Fin 2) * 1 + 1 * z.val = z.val; omega
  | ⟨1, _⟩ => show win0_4.index t (1 : Fin 2) * 64 + 1 * q.val = q.val; omega
theorem emb0_5 (t : Fin cfg0.N) (p : Fin 4000) (q : Fin 64) : ((cfg0.win 5).blk t).view.emb (ix2 p q) = ix2 (node0 t p) q := by
  obtain ⟨e00, e01, e10, e11, e20, e21, e30, e31, e40, e41, e50, e51⟩ := idx0 t
  funext a; apply Fin.ext
  match a with
  | ⟨0, _⟩ => show win0_5.index t (0 : Fin 2) * 4000 + 1 * p.val = t.val * 4000 + p.val; omega
  | ⟨1, _⟩ => show win0_5.index t (1 : Fin 2) * 64 + 1 * q.val = q.val; omega

/-- What point `t` writes back is block `t` of the tanh layer of the arrays the region finds. -/
theorem flushed0 (c : Dev nD) (t : Fin cfg0.N) :
    (dat0 V c).flushed 5 t = ((cfg0.win 5).blk t).view.read (Elt Ideal)
      (layerTanh (V c main_v26) (V c main_v13) (V c main_v14) (V c main_arg4) (V c main_v27)) := by
  show (cfg0.win 5).cut (grid0.coords t) ((dat0 V c).after 5 t) = _
  rw [after0_5]
  unfold out0_5
  rw [View.canon_unit_zero hz]
  simp only [View.ld_unit_zero (S := S4000x64) hz, View.ld_unit_zero (S := S4000x1) hz, View.ld_unit_zero (S := S64x64) hz, View.ld_unit_zero (S := S1x64) hz]
  funext y
  obtain ⟨p, q, rfl⟩ : ∃ (p : Fin 4000) (q : Fin 64), y = ix2 p q := ⟨y 0, y 1, eq_ix2 y⟩
  refine (pay_tanh_apply _ _ _ _ _ p q).trans ?_
  have key : ∀ (A : FVec Ideal S100000x64 .f32) (Dout Din : FVec Ideal S100000x1 .f32) (W : FVec Ideal S64x64 .f32) (B : FVec Ideal S1x64 .f32),
      Ideal.tanh ((∑ k : Fin 64, (A (((cfg0.win 0).blk t).view.emb (ix2 p k)) * Din (((cfg0.win 2).blk t).view.emb (ix2 p (0 : Fin 1))))
            * W (((cfg0.win 3).blk t).view.emb (ix2 k q))) + B (((cfg0.win 4).blk t).view.emb (ix2 (0 : Fin 1) q)))
          * Dout (((cfg0.win 1).blk t).view.emb (ix2 p (0 : Fin 1)))
        = layerTanh A Dout Din W B (((cfg0.win 5).blk t).view.emb (ix2 p q)) := by
    intro A Dout Din W B
    rw [emb0_1 t p 0, emb0_2 t p 0, emb0_4 t 0 q, emb0_5 t p q]
    have hs : (∑ k : Fin 64, (A (((cfg0.win 0).blk t).view.emb (ix2 p k)) * Din (ix2 (node0 t p) (0 : Fin 1))) * W (((cfg0.win 3).blk t).view.emb (ix2 k q)))
        = ∑ k : Fin 64, (A (ix2 (node0 t p) k) * Din (ix2 (node0 t p) (0 : Fin 1))) * W (ix2 k q) :=
      Finset.sum_congr rfl fun k _ => by rw [emb0_0 t p k, emb0_3 t k q]
    rw [hs]
    rfl
  exact key (V c main_v26) (V c main_v13) (V c main_v14) (V c main_arg4) (V c main_v27)

/-- An index of the output array is in point `t`'s block iff each coordinate is in the block's range on its axis. -/
theorem mem_blk0 (t : Fin cfg0.N) (i : S100000x64.Idx) :
    i ∈ ((cfg0.win 5).blk t).view.set ↔ ∀ a : Fin 2, win0_5.index t a * S4000x64.size a ≤ (i a).val ∧ (i a).val < win0_5.index t a * S4000x64.size a + S4000x64.size a := by
  show i ∈ ((View.whole main_v28).slice (win0_5.rect t)).set ↔ _
  rw [View.set_slice_whole, Rect.mem_set_unit]
  exact Iff.rfl

/-- Node `r` lies in the block of point `r / 4000`: the 25 blocks cover the output array. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 25 := N_0
  let t : Fin cfg0.N := ⟨(i 0).val / 4000, by omega⟩
  obtain ⟨e00, e01, e10, e11, e20, e21, e30, e31, e40, e41, e50, e51⟩ := idx0 t
  have ht : t.val = (i 0).val / 4000 := rfl
  refine ⟨t, flush0_5 t, ?_⟩
  rw [mem_blk0]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 64 ≤ (i 1).val ∧ (i 1).val < win0_5.index t (1 : Fin 2) * 64 + 64; omega

/-- After this region its output array holds the tanh layer of the arrays the region found. -/
theorem final0 (c : Dev nD) :
    (dat0 V c).arrAt 5 cfg0.N = layerTanh (V c main_v26) (V c main_v13) (V c main_v14) (V c main_arg4) (V c main_v27) :=
  (dat0 V c).arrAt_eq_of_cover 5 _ (fun t _ => flushed0 V c t) cover0

end Cert.KernelIdeal.Region0

end
-- ==== Proof.KernelRegion1.lean ====
/-
  The array the second region leaves behind, as one function of the arrays it finds.

  The region cuts the node axis into blocks of consecutive rows; at each point it loads the block's rows of the
  neighbour sum and of the degree columns, the whole weight matrix and the bias row, and stores the body's value for
  those rows. Entry (p, q) of the stored block is the layer function's entry at node (block start + p), feature q,
  because every input block is read at the same rows the output block is written to; and every node lies in exactly
  the block its number divided by the block height names, so the blocks cover the array.
-/
import proofs.«143272_j26268019983050_1_alg».proof.Proof.KernelIdealFrame
import proofs.«143272_j26268019983050_1_alg».proof.Proof.KernelPayload
import proofs.«143272_j26268019983050_1_alg».proof.Proof.Layers
import Idealize.ShloMosaic.Lib.Pipeline.Value

noncomputable section

namespace Cert.KernelIdeal.Region1

open Cert.KernelIdeal Cert.KernelIdeal.Gen Cert.KernelIdeal.GenP Cert.KernelIdeal.Body Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The second region: 25 blocks of 4000 nodes, the positive-part layer -/

/-- The printed index maps of this region, decided over its 25 points: the three row-tiled inputs move with the
    output's block of 4000 rows, the weights and the bias row stay, and the output's block is the point's number. -/
theorem idx1 : ∀ t : Fin cfg1.N,
      win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is node `4000 t + p`. -/
def node1 (t : Fin cfg1.N) (p : Fin 4000) : Fin 100000 :=
  ⟨t.val * 4000 + p.val, by have h1 := t.isLt; have h2 := p.isLt; have h3 : cfg1.N = 25 := N_1; omega⟩

/-- Where an entry of each window's block sits in the window's array. -/
theorem emb1_0 (t : Fin cfg1.N) (p : Fin 4000) (k : Fin 64) : ((cfg1.win 0).blk t).view.emb (ix2 p k) = ix2 (node1 t p) k := by
  obtain ⟨e00, e01, e10, e11, e20, e21, e30, e31, e40, e41, e50, e51⟩ := idx1 t
  funext a; apply Fin.ext
  match a with
  | ⟨0, _⟩ => show win1_0.index t (0 : Fin 2) * 4000 + 1 * p.val = t.val * 4000 + p.val; omega
  | ⟨1, _⟩ => show win1_0.index t (1 : Fin 2) * 64 + 1 * k.val = k.val; omega
theorem emb1_1 (t : Fin cfg1.N) (p : Fin 4000) (z : Fin 1) : ((cfg1.win 1).blk t).view.emb (ix2 p z) = ix2 (node1 t p) z := by
  obtain ⟨e00, e01, e10, e11, e20, e21, e30, e31, e40, e41, e50, e51⟩ := idx1 t
  funext a; apply Fin.ext
  match a with
  | ⟨0, _⟩ => show win1_1.index t (0 : Fin 2) * 4000 + 1 * p.val = t.val * 4000 + p.val; omega
  | ⟨1, _⟩ => show win1_1.index t (1 : Fin 2) * 1 + 1 * z.val = z.val; omega
theorem emb1_2 (t : Fin cfg1.N) (p : Fin 4000) (z : Fin 1) : ((cfg1.win 2).blk t).view.emb (ix2 p z) = ix2 (node1 t p) z := by
  obtain ⟨e00, e01, e10, e11, e20, e21, e30, e31, e40, e41, e50, e51⟩ := idx1 t
  funext a; apply Fin.ext
  match a with
  | ⟨0, _⟩ => show win1_2.index t (0 : Fin 2) * 4000 + 1 * p.val = t.val * 4000 + p.val; omega
  | ⟨1, _⟩ => show win1_2.index t (1 : Fin 2) * 1 + 1 * z.val = z.val; omega
theorem emb1_3 (t : Fin cfg1.N) (k : Fin 64) (q : Fin 64) : ((cfg1.win 3).blk t).view.emb (ix2 k q) = ix2 k q := by
  obtain ⟨e00, e01, e10, e11, e20, e21, e30, e31, e40, e41, e50, e51⟩ := idx1 t
  funext a; apply Fin.ext
  match a with
  | ⟨0, _⟩ => show win1_3.index t (0 : Fin 2) * 64 + 1 * k.val = k.val; omega
  | ⟨1, _⟩ => show win1_3.index t (1 : Fin 2) * 64 + 1 * q.val = q.val; omega
theorem emb1_4 (t : Fin cfg1.N) (z : Fin 1) (q : Fin 64) : ((cfg1.win 4).blk t).view.emb (ix2 z q) = ix2 z q := by
  obtain ⟨e00, e01, e10, e11, e20, e21, e30, e31, e40, e41, e50, e51⟩ := idx1 t
  funext a; apply Fin.ext
  match a with
  | ⟨0, _⟩ => show win1_4.index t (0 : Fin 2) * 1 + 1 * z.val = z.val; omega
  | ⟨1, _⟩ => show win1_4.index t (1 : Fin 2) * 64 + 1 * q.val = q.val; omega
theorem emb1_5 (t : Fin cfg1.N) (p : Fin 4000) (q : Fin 64) : ((cfg1.win 5).blk t).view.emb (ix2 p q) = ix2 (node1 t p) q := by
  obtain ⟨e00, e01, e10, e11, e20, e21, e30, e31, e40, e41, e50, e51⟩ := idx1 t
  funext a; apply Fin.ext
  match a with
  | ⟨0, _⟩ => show win1_5.index t (0 : Fin 2) * 4000 + 1 * p.val = t.val * 4000 + p.val; omega
  | ⟨1, _⟩ => show win1_5.index t (1 : Fin 2) * 64 + 1 * q.val = q.val; omega

/-- What point `t` writes back is block `t` of the positive-part layer of the arrays the region finds. -/
theorem flushed1 (c : Dev nD) (t : Fin cfg1.N) :
    (dat1 V c).flushed 5 t = ((cfg1.win 5).blk t).view.read (Elt Ideal)
      (layerRelu (V c main_v38) (V c main_v13) (V c main_v14) (V c main_arg6) (V c main_v39)) := by
  show (cfg1.win 5).cut (grid1.coords t) ((dat1 V c).after 5 t) = _
  rw [after1_5]
  unfold out1_5
  rw [View.canon_unit_zero hz]
  simp only [View.ld_unit_zero (S := S4000x64) hz, View.ld_unit_zero (S := S4000x1) hz, View.ld_unit_zero (S := S64x64) hz, View.ld_unit_zero (S := S1x64) hz]
  funext y
  obtain ⟨p, q, rfl⟩ : ∃ (p : Fin 4000) (q : Fin 64), y = ix2 p q := ⟨y 0, y 1, eq_ix2 y⟩
  refine (pay_relu_apply _ _ _ _ _ p q).trans ?_
  have key : ∀ (A : FVec Ideal S100000x64 .f32) (Dout Din : FVec Ideal S100000x1 .f32) (W : FVec Ideal S64x64 .f32) (B : FVec Ideal S1x64 .f32),
      max ((∑ k : Fin 64, (A (((cfg1.win 0).blk t).view.emb (ix2 p k)) * Din (((cfg1.win 2).blk t).view.emb (ix2 p (0 : Fin 1))))
            * W (((cfg1.win 3).blk t).view.emb (ix2 k q))) + B (((cfg1.win 4).blk t).view.emb (ix2 (0 : Fin 1) q))) (Ideal.ofBits .f32 0x00000000#32)
          * Dout (((cfg1.win 1).blk t).view.emb (ix2 p (0 : Fin 1)))
        = layerRelu A Dout Din W B (((cfg1.win 5).blk t).view.emb (ix2 p q)) := by
    intro A Dout Din W B
    rw [emb1_1 t p 0, emb1_2 t p 0, emb1_4 t 0 q, emb1_5 t p q]
    have hs : (∑ k : Fin 64, (A (((cfg1.win 0).blk t).view.emb (ix2 p k)) * Din (ix2 (node1 t p) (0 : Fin 1))) * W (((cfg1.win 3).blk t).view.emb (ix2 k q)))
        = ∑ k : Fin 64, (A (ix2 (node1 t p) k) * Din (ix2 (node1 t p) (0 : Fin 1))) * W (ix2 k q) :=
      Finset.sum_congr rfl fun k _ => by rw [emb1_0 t p k, emb1_3 t k q]
    rw [hs]
    rfl
  exact key (V c main_v38) (V c main_v13) (V c main_v14) (V c main_arg6) (V c main_v39)

/-- An index of the output array is in point `t`'s block iff each coordinate is in the block's range on its axis. -/
theorem mem_blk1 (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v40).slice (win1_5.rect t)).set ↔ _
  rw [View.set_slice_whole, Rect.mem_set_unit]
  exact Iff.rfl

/-- Node `r` lies in the block of point `r / 4000`: the 25 blocks cover the output array. -/
theorem cover1 (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  let t : Fin cfg1.N := ⟨(i 0).val / 4000, by omega⟩
  obtain ⟨e00, e01, e10, e11, e20, e21, e30, e31, e40, e41, e50, e51⟩ := idx1 t
  have ht : t.val = (i 0).val / 4000 := rfl
  refine ⟨t, flush1_5 t, ?_⟩
  rw [mem_blk1]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- After this region its output array holds the positive-part layer of the arrays the region found. -/
theorem final1 (c : Dev nD) :
    (dat1 V c).arrAt 5 cfg1.N = layerRelu (V c main_v38) (V c main_v13) (V c main_v14) (V c main_arg6) (V c main_v39) :=
  (dat1 V c).arrAt_eq_of_cover 5 _ (fun t _ => flushed1 V c t) cover1

end Cert.KernelIdeal.Region1

end
-- ==== Proof.KernelRegion2.lean ====
/-
  The array the last region leaves behind, as one function of the arrays it finds.

  The region cuts the node axis into blocks of consecutive rows; at each point it loads the block's rows of the
  neighbour sum and of the degree columns, the whole weight matrix and the bias row, and stores the body's value for
  those rows. Entry (p, q) of the stored block is the layer function's entry at node (block start + p), feature q,
  because every input block is read at the same rows the output block is written to; and every node lies in exactly
  the block its number divided by the block height names, so the blocks cover the array.
-/
import proofs.«143272_j26268019983050_1_alg».proof.Proof.KernelIdealFrame
import proofs.«143272_j26268019983050_1_alg».proof.Proof.KernelPayload
import proofs.«143272_j26268019983050_1_alg».proof.Proof.Layers
import Idealize.ShloMosaic.Lib.Pipeline.Value

noncomputable section

namespace Cert.KernelIdeal.Region2

open Cert.KernelIdeal Cert.KernelIdeal.Gen Cert.KernelIdeal.GenP Cert.KernelIdeal.Body Cert.GraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The last region: 50 blocks of 2000 nodes, the mean and the sample -/

/-- The printed index maps of this region, decided over its 50 points: the neighbour sum, the in-degree column and the
    noise move with the outputs' block of 2000 rows, the weights and the bias row stay, and both outputs' block is the
    point's number. -/
theorem idx2 : ∀ t : Fin cfg2.N,
      win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = win2_5.index t (0 : Fin 2) ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row `p` of point `t`'s block is node `2000 t + p`. -/
def node2 (t : Fin cfg2.N) (p : Fin 2000) : Fin 100000 :=
  ⟨t.val * 2000 + p.val, by have h1 := t.isLt; have h2 := p.isLt; have h3 : cfg2.N = 50 := N_2; omega⟩

/-- Where an entry of each window's block sits in the window's array. -/
theorem emb2_0 (t : Fin cfg2.N) (p : Fin 2000) (k : Fin 64) : ((cfg2.win 0).blk t).view.emb (ix2 p k) = ix2 (node2 t p) k := by
  obtain ⟨e00, e01, e10, e11, e20, e21, e30, e31, e40, e41, e50, e51, e60, e61⟩ := idx2 t
  funext a; apply Fin.ext
  match a with
  | ⟨0, _⟩ => show win2_0.index t (0 : Fin 2) * 2000 + 1 * p.val = t.val * 2000 + p.val; omega
  | ⟨1, _⟩ => show win2_0.index t (1 : Fin 2) * 64 + 1 * k.val = k.val; omega
theorem emb2_1 (t : Fin cfg2.N) (p : Fin 2000) (z : Fin 1) : ((cfg2.win 1).blk t).view.emb (ix2 p z) = ix2 (node2 t p) z := by
  obtain ⟨e00, e01, e10, e11, e20, e21, e30, e31, e40, e41, e50, e51, e60, e61⟩ := idx2 t
  funext a; apply Fin.ext
  match a with
  | ⟨0, _⟩ => show win2_1.index t (0 : Fin 2) * 2000 + 1 * p.val = t.val * 2000 + p.val; omega
  | ⟨1, _⟩ => show win2_1.index t (1 : Fin 2) * 1 + 1 * z.val = z.val; omega
theorem emb2_2 (t : Fin cfg2.N) (k : Fin 64) (q : Fin 32) : ((cfg2.win 2).blk t).view.emb (ix2 k q) = ix2 k q := by
  obtain ⟨e00, e01, e10, e11, e20, e21, e30, e31, e40, e41, e50, e51, e60, e61⟩ := idx2 t
  funext a; apply Fin.ext
  match a with
  | ⟨0, _⟩ => show win2_2.index t (0 : Fin 2) * 64 + 1 * k.val = k.val; omega
  | ⟨1, _⟩ => show win2_2.index t (1 : Fin 2) * 32 + 1 * q.val = q.val; omega
theorem emb2_3 (t : Fin cfg2.N) (z : Fin 1) (q : Fin 32) : ((cfg2.win 3).blk t).view.emb (ix2 z q) = ix2 z q := by
  obtain ⟨e00, e01, e10, e11, e20, e21, e30, e31, e40, e41, e50, e51, e60, e61⟩ := idx2 t
  funext a; apply Fin.ext
  match a with
  | ⟨0, _⟩ => show win2_3.index t (0 : Fin 2) * 1 + 1 * z.val = z.val; omega
  | ⟨1, _⟩ => show win2_3.index t (1 : Fin 2) * 32 + 1 * q.val = q.val; omega
theorem emb2_4 (t : Fin cfg2.N) (p : Fin 2000) (q : Fin 32) : ((cfg2.win 4).blk t).view.emb (ix2 p q) = ix2 (node2 t p) q := by
  obtain ⟨e00, e01, e10, e11, e20, e21, e30, e31, e40, e41, e50, e51, e60, e61⟩ := idx2 t
  funext a; apply Fin.ext
  match a with
  | ⟨0, _⟩ => show win2_4.index t (0 : Fin 2) * 2000 + 1 * p.val = t.val * 2000 + p.val; omega
  | ⟨1, _⟩ => show win2_4.index t (1 : Fin 2) * 32 + 1 * q.val = q.val; omega
theorem emb2_5 (t : Fin cfg2.N) (p : Fin 2000) (q : Fin 32) : ((cfg2.win 5).blk t).view.emb (ix2 p q) = ix2 (node2 t p) q := by
  obtain ⟨e00, e01, e10, e11, e20, e21, e30, e31, e40, e41, e50, e51, e60, e61⟩ := idx2 t
  funext a; apply Fin.ext
  match a with
  | ⟨0, _⟩ => show win2_5.index t (0 : Fin 2) * 2000 + 1 * p.val = t.val * 2000 + p.val; omega
  | ⟨1, _⟩ => show win2_5.index t (1 : Fin 2) * 32 + 1 * q.val = q.val; omega
theorem emb2_6 (t : Fin cfg2.N) (p : Fin 2000) (q : Fin 32) : ((cfg2.win 6).blk t).view.emb (ix2 p q) = ix2 (node2 t p) q := by
  obtain ⟨e00, e01, e10, e11, e20, e21, e30, e31, e40, e41, e50, e51, e60, e61⟩ := idx2 t
  funext a; apply Fin.ext
  match a with
  | ⟨0, _⟩ => show win2_6.index t (0 : Fin 2) * 2000 + 1 * p.val = t.val * 2000 + p.val; omega
  | ⟨1, _⟩ => show win2_6.index t (1 : Fin 2) * 32 + 1 * q.val = q.val; omega

/-- What point `t` writes back to the mean array is block `t` of the mean of the arrays the region finds. -/
theorem flushed2_mean (c : Dev nD) (t : Fin cfg2.N) :
    (dat2 V c).flushed 5 t = ((cfg2.win 5).blk t).view.read (Elt Ideal)
      (layerMean (V c main_v50) (V c main_v14) (V c main_arg8) (V c main_v51)) := by
  show (cfg2.win 5).cut (grid2.coords t) ((dat2 V c).after 5 t) = _
  rw [after2_5]
  unfold out2_5
  rw [View.canon_unit_zero hz]
  simp only [View.ld_unit_zero (S := S2000x64) hz, View.ld_unit_zero (S := S2000x1) hz, View.ld_unit_zero (S := S64x32) hz, View.ld_unit_zero (S := S1x32) hz]
  funext y
  obtain ⟨p, q, rfl⟩ : ∃ (p : Fin 2000) (q : Fin 32), y = ix2 p q := ⟨y 0, y 1, eq_ix2 y⟩
  refine (pay_mean_apply _ _ _ _ p q).trans ?_
  have key : ∀ (A : FVec Ideal S100000x64 .f32) (Din : FVec Ideal S100000x1 .f32) (W : FVec Ideal S64x32 .f32) (B : FVec Ideal S1x32 .f32),
      (∑ k : Fin 64, (A (((cfg2.win 0).blk t).view.emb (ix2 p k)) * Din (((cfg2.win 1).blk t).view.emb (ix2 p (0 : Fin 1))))
            * W (((cfg2.win 2).blk t).view.emb (ix2 k q))) + B (((cfg2.win 3).blk t).view.emb (ix2 (0 : Fin 1) q))
        = layerMean A Din W B (((cfg2.win 5).blk t).view.emb (ix2 p q)) := by
    intro A Din W B
    rw [emb2_1 t p 0, emb2_3 t 0 q, emb2_5 t p q]
    have hs : (∑ k : Fin 64, (A (((cfg2.win 0).blk t).view.emb (ix2 p k)) * Din (ix2 (node2 t p) (0 : Fin 1))) * W (((cfg2.win 2).blk t).view.emb (ix2 k q)))
        = ∑ k : Fin 64, (A (ix2 (node2 t p) k) * Din (ix2 (node2 t p) (0 : Fin 1))) * W (ix2 k q) :=
      Finset.sum_congr rfl fun k _ => by rw [emb2_0 t p k, emb2_2 t k q]
    rw [hs]
    rfl
  exact key (V c main_v50) (V c main_v14) (V c main_arg8) (V c main_v51)

/-- What point `t` writes back to the sample array is block `t` of the sample of the arrays the region finds. -/
theorem flushed2_sample (c : Dev nD) (t : Fin cfg2.N) :
    (dat2 V c).flushed 6 t = ((cfg2.win 6).blk t).view.read (Elt Ideal)
      (layerSample (V c main_v50) (V c main_v14) (V c main_arg8) (V c main_v51) (V c main_arg3)) := by
  show (cfg2.win 6).cut (grid2.coords t) ((dat2 V c).after 6 t) = _
  rw [after2_6]
  unfold out2_6
  rw [View.canon_unit_zero hz]
  simp only [View.ld_unit_zero (S := S2000x64) hz, View.ld_unit_zero (S := S2000x1) hz, View.ld_unit_zero (S := S64x32) hz, View.ld_unit_zero (S := S1x32) hz, View.ld_unit_zero (S := S2000x32) hz]
  funext y
  obtain ⟨p, q, rfl⟩ : ∃ (p : Fin 2000) (q : Fin 32), y = ix2 p q := ⟨y 0, y 1, eq_ix2 y⟩
  refine (pay_sample_apply _ _ _ _ _ p q).trans ?_
  have key : ∀ (A : FVec Ideal S100000x64 .f32) (Din : FVec Ideal S100000x1 .f32) (W : FVec Ideal S64x32 .f32) (B : FVec Ideal S1x32 .f32)
      (E : FVec Ideal S100000x32 .f32),
      ((∑ k : Fin 64, (A (((cfg2.win 0).blk t).view.emb (ix2 p k)) * Din (((cfg2.win 1).blk t).view.emb (ix2 p (0 : Fin 1))))
            * W (((cfg2.win 2).blk t).view.emb (ix2 k q))) + B (((cfg2.win 3).blk t).view.emb (ix2 (0 : Fin 1) q)))
        + Ideal.exp ((∑ k : Fin 64, (A (((cfg2.win 0).blk t).view.emb (ix2 p k)) * Din (((cfg2.win 1).blk t).view.emb (ix2 p (0 : Fin 1))))
            * W (((cfg2.win 2).blk t).view.emb (ix2 k q))) + B (((cfg2.win 3).blk t).view.emb (ix2 (0 : Fin 1) q))) * E (((cfg2.win 4).blk t).view.emb (ix2 p q))
        = layerSample A Din W B E (((cfg2.win 6).blk t).view.emb (ix2 p q)) := by
    intro A Din W B E
    rw [emb2_1 t p 0, emb2_3 t 0 q, emb2_4 t p q, emb2_6 t p q]
    have hs : (∑ k : Fin 64, (A (((cfg2.win 0).blk t).view.emb (ix2 p k)) * Din (ix2 (node2 t p) (0 : Fin 1))) * W (((cfg2.win 2).blk t).view.emb (ix2 k q)))
        = ∑ k : Fin 64, (A (ix2 (node2 t p) k) * Din (ix2 (node2 t p) (0 : Fin 1))) * W (ix2 k q) :=
      Finset.sum_congr rfl fun k _ => by rw [emb2_0 t p k, emb2_2 t k q]
    rw [hs]
    rfl
  exact key (V c main_v50) (V c main_v14) (V c main_arg8) (V c main_v51) (V c main_arg3)

/-- An index of the output array is in point `t`'s block iff each coordinate is in the block's range on its axis. -/
theorem mem_blk2_5 (t : Fin cfg2.N) (i : S100000x32.Idx) :
    i ∈ ((cfg2.win 5).blk t).view.set ↔ ∀ a : Fin 2, win2_5.index t a * S2000x32.size a ≤ (i a).val ∧ (i a).val < win2_5.index t a * S2000x32.size a + S2000x32.size a := by
  show i ∈ ((View.whole main_v52_0).slice (win2_5.rect t)).set ↔ _
  rw [View.set_slice_whole, Rect.mem_set_unit]
  exact Iff.rfl

/-- Node `r` lies in the block of point `r / 2000`: the 50 blocks cover the output array. -/
theorem cover2_5 (i : S100000x32.Idx) : ∃ t : Fin cfg2.N, (cfg2.win 5).flush t = true ∧ i ∈ ((cfg2.win 5).blk t).view.set := by
  have hi0 : (i 0).val < 100000 := (i 0).isLt
  have hi1 : (i 1).val < 32 := (i 1).isLt
  have hN : cfg2.N = 50 := N_2
  let t : Fin cfg2.N := ⟨(i 0).val / 2000, by omega⟩
  obtain ⟨e00, e01, e10, e11, e20, e21, e30, e31, e40, e41, e50, e51, e60, e61⟩ := idx2 t
  have ht : t.val = (i 0).val / 2000 := rfl
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 32 ≤ (i 1).val ∧ (i 1).val < win2_5.index t (1 : Fin 2) * 32 + 32; omega

/-- An index of the output array is in point `t`'s block iff each coordinate is in the block's range on its axis. -/
theorem mem_blk2_6 (t : Fin cfg2.N) (i : S100000x32.Idx) :
    i ∈ ((cfg2.win 6).blk t).view.set ↔ ∀ a : Fin 2, win2_6.index t a * S2000x32.size a ≤ (i a).val ∧ (i a).val < win2_6.index t a * S2000x32.size a + S2000x32.size a := by
  show i ∈ ((View.whole main_v52_1).slice (win2_6.rect t)).set ↔ _
  rw [View.set_slice_whole, Rect.mem_set_unit]
  exact Iff.rfl

/-- Node `r` lies in the block of point `r / 2000`: the 50 blocks cover the output array. -/
theorem cover2_6 (i : S100000x32.Idx) : ∃ t : Fin cfg2.N, (cfg2.win 6).flush t = true ∧ i ∈ ((cfg2.win 6).blk t).view.set := by
  have hi0 : (i 0).val < 100000 := (i 0).isLt
  have hi1 : (i 1).val < 32 := (i 1).isLt
  have hN : cfg2.N = 50 := N_2
  let t : Fin cfg2.N := ⟨(i 0).val / 2000, by omega⟩
  obtain ⟨e00, e01, e10, e11, e20, e21, e30, e31, e40, e41, e50, e51, e60, e61⟩ := idx2 t
  have ht : t.val = (i 0).val / 2000 := rfl
  refine ⟨t, flush2_6 t, ?_⟩
  rw [mem_blk2_6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 32 ≤ (i 1).val ∧ (i 1).val < win2_6.index t (1 : Fin 2) * 32 + 32; omega

/-- After this region the mean array holds the mean of the arrays the region found … -/
theorem final2_mean (c : Dev nD) :
    (dat2 V c).arrAt 5 cfg2.N = layerMean (V c main_v50) (V c main_v14) (V c main_arg8) (V c main_v51) :=
  (dat2 V c).arrAt_eq_of_cover 5 _ (fun t _ => flushed2_mean V c t) cover2_5

/-- … and the sample array the sample. -/
theorem final2_sample (c : Dev nD) :
    (dat2 V c).arrAt 6 cfg2.N = layerSample (V c main_v50) (V c main_v14) (V c main_arg8) (V c main_v51) (V c main_arg3) :=
  (dat2 V c).arrAt_eq_of_cover 6 _ (fun t _ => flushed2_sample V c t) cover2_6

end Cert.KernelIdeal.Region2

end
-- ==== Proof.KernelChain.lean ====
/-
  The kernel program's two result arrays, read back through its six segments, are the reference's stages of the
  program's arguments.

  The program alternates stretches of host operations with three block-tiled regions. The host stretches are the
  reference's own operations on the same operands: the two degree columns; the first neighbour sum of the scaled input
  features; and, after each of the first two regions, the gather of that region's output along the source nodes and
  its sum into the destination nodes. Each region's output array is one layer function of the arrays the region
  finds (the region values), and each layer function of the reference's operands is the reference's stage (the
  reference's layers). Reading the last boundary's contents backwards therefore names the mean array as the
  reference's mean stage and the sample array as its sample stage.
-/
import proofs.«143272_j26268019983050_1_alg».proof.Proof.KernelIdealFrame
import proofs.«143272_j26268019983050_1_alg».proof.Proof.KernelRegion0
import proofs.«143272_j26268019983050_1_alg».proof.Proof.KernelRegion1
import proofs.«143272_j26268019983050_1_alg».proof.Proof.KernelRegion2
import proofs.«143272_j26268019983050_1_alg».proof.Proof.RefLayers
import Idealize.ShloMosaic.Lib.StableHlo.Run
import Idealize.ShloMosaic.Lib.ValueLayout

noncomputable section

namespace Cert.KernelIdeal.Chain

open Cert.KernelIdeal Cert.KernelIdeal.Gen Cert.KernelIdeal.GenP Cert.GraphConv
open Idealize.ShloMosaic Idealize.ShloMosaic.TcCoe Idealize.ShloMosaic.ValueIdx Idealize.SL.Sem Idealize.ShloMosaic.StableHlo
open Idealize.ShloMosaic.Pipeline (Dat Cfg Window)
open Cert.ReferenceIdeal.Read (val_main_v25 val_main_v13 val_main_v26 val_main_v30 val_main_v36 val_main_v46 val_main_v51 val_main_v57
  val_main_v67 val_main_v72 val_main_v74 val_main_v97 val_main_v30_apply val_main_v51_apply val_main_v72_apply)
open Cert.ReferenceIdeal.RefValue (layer1_eq layer2_eq mean_eq sample_eq)

variable (m : (ℓ : Loc nD τ sig) → Buf (Elt Ideal) ℓ) (ρ : Dev nD → PrngReg)

/-! ## The arguments as launched -/

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)
abbrev a9 (c : Dev nD) := m ((c : Thread nD τ).loc main_arg9)

/-! ## A bias vector laid out as a row

The kernel program reshapes `[D]` to `[1, D]`; the reference broadcasts it there. Both rows hold the vector. -/

theorem row64 (b : FVec Ideal S64 .f32) :
    (fun i => shapeCast S1x64 b shapeCasts_S64_S1x64 i) = val_main_v30 (F := Ideal) b := by
  funext i
  obtain ⟨u, j, rfl⟩ : ∃ (u : Fin 1) (j : Fin 64), i = ix2 u j := ⟨i 0, i 1, eq_ix2 i⟩
  rw [shapeCast_a_1a_apply, val_main_v30_apply]
  exact congrArg b (funext fun a => Fin.ext (by match a with | ⟨0, _⟩ => rfl))

theorem row64' (b : FVec Ideal S64 .f32) :
    (fun i => shapeCast S1x64 b shapeCasts_S64_S1x64 i) = val_main_v51 (F := Ideal) b := by
  funext i
  obtain ⟨u, j, rfl⟩ : ∃ (u : Fin 1) (j : Fin 64), i = ix2 u j := ⟨i 0, i 1, eq_ix2 i⟩
  rw [shapeCast_a_1a_apply, val_main_v51_apply]
  exact congrArg b (funext fun a => Fin.ext (by match a with | ⟨0, _⟩ => rfl))

theorem row32 (b : FVec Ideal S32 .f32) :
    (fun i => shapeCast S1x32 b shapeCasts_S32_S1x32 i) = val_main_v72 (F := Ideal) b := by
  funext i
  obtain ⟨u, j, rfl⟩ : ∃ (u : Fin 1) (j : Fin 32), i = ix2 u j := ⟨i 0, i 1, eq_ix2 i⟩
  rw [shapeCast_a_1a_apply, val_main_v72_apply]
  exact congrArg b (funext fun a => Fin.ext (by match a with | ⟨0, _⟩ => rfl))

/-! ## The neighbour sum

Between two regions both programs gather the previous layer's rows along the edges' source nodes (a negative source
index counted from the end) and add them into the edges' destination nodes, from zero. -/

/-- Gather `x`'s rows along `src`, sum them into `dst`. -/
def edgeSum (x : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The second stretch of host operations computes the neighbour sum of the first region's output … -/
theorem stretch1 (G : Valuation τ sig (Elt Ideal)) :
    StableHlo.after hostOps1 G (Proc.devRef .tc main_v38)
      = edgeSum (G (Proc.devRef .tc main_v28)) (G (Proc.devRef .tc main_arg1)) (G (Proc.devRef .tc main_arg2)) := by
  after_results
  rfl
/-- … and the third that of the second region's output. -/
theorem stretch2 (G : Valuation τ sig (Elt Ideal)) :
    StableHlo.after hostOps2 G (Proc.devRef .tc main_v50)
      = edgeSum (G (Proc.devRef .tc main_v40)) (G (Proc.devRef .tc main_arg1)) (G (Proc.devRef .tc main_arg2)) := by
  after_results
  rfl
/-- The reference's second and third neighbour sums are the same function of its first and second layers. -/
theorem ref_edge2 (x0 : FVec Ideal S100000x64 .f32) (x1 x2 : IVec S1600000 32) (x4 : FVec Ideal S64x64 .f32) (x5 : FVec Ideal S64 .f32) :
    val_main_v46 (F := Ideal) x0 x1 x2 x4 x5 = edgeSum (val_main_v36 (F := Ideal) x0 x1 x2 x4 x5) x1 x2 := rfl
theorem ref_edge3 (x0 : FVec Ideal S100000x64 .f32) (x1 x2 : IVec S1600000 32) (x4 : FVec Ideal S64x64 .f32) (x5 : FVec Ideal S64 .f32)
    (x6 : FVec Ideal S64x64 .f32) (x7 : FVec Ideal S64 .f32) :
    val_main_v67 (F := Ideal) x0 x1 x2 x4 x5 x6 x7 = edgeSum (val_main_v57 (F := Ideal) x0 x1 x2 x4 x5 x6 x7) x1 x2 := rfl

/-! ## The first stretch of host operations: the degree columns and the first neighbour sum -/

theorem V1_v26 (c : Dev nD) : V1 m ρ c main_v26 = val_main_v25 (F := Ideal) (a0 m c) (a1 m c) (a2 m c) := by
  show StableHlo.after hostOps0 (W0 m ρ c) (Proc.devRef .tc main_v26) = _
  after_results_simp
  rfl
theorem V1_v13 (c : Dev nD) : V1 m ρ c main_v13 = val_main_v13 (F := Ideal) (a1 m c) := by
  show StableHlo.after hostOps0 (W0 m ρ c) (Proc.devRef .tc main_v13) = _
  after_results_simp
  rfl
theorem V1_v14 (c : Dev nD) : V1 m ρ c main_v14 = val_main_v26 (F := Ideal) (a2 m c) := by
  show StableHlo.after hostOps0 (W0 m ρ c) (Proc.devRef .tc main_v14) = _
  after_results_simp
  rfl
theorem V1_arg4 (c : Dev nD) : V1 m ρ c main_arg4 = a4 m c := by
  show StableHlo.after hostOps0 (W0 m ρ c) (Proc.devRef .tc main_arg4) = _
  after_results_simp
theorem V1_v27 (c : Dev nD) : V1 m ρ c main_v27 = val_main_v30 (F := Ideal) (a5 m c) := by
  show StableHlo.after hostOps0 (W0 m ρ c) (Proc.devRef .tc main_v27) = _
  after_results_simp
  exact row64 (a5 m c)

/-- The arguments the later stretches read are untouched by the first one. -/
theorem W1_arg1 (c : Dev nD) : W1 m ρ c (Proc.devRef .tc main_arg1) = a1 m c := by
  show StableHlo.after hostOps0 (W0 m ρ c) (Proc.devRef .tc main_arg1) = _
  after_results_simp
theorem W1_arg2 (c : Dev nD) : W1 m ρ c (Proc.devRef .tc main_arg2) = a2 m c := by
  show StableHlo.after hostOps0 (W0 m ρ c) (Proc.devRef .tc main_arg2) = _
  after_results_simp
theorem W1_arg3 (c : Dev nD) : W1 m ρ c (Proc.devRef .tc main_arg3) = a3 m c := by
  show StableHlo.after hostOps0 (W0 m ρ c) (Proc.devRef .tc main_arg3) = _
  after_results_simp
theorem W1_arg6 (c : Dev nD) : W1 m ρ c (Proc.devRef .tc main_arg6) = a6 m c := by
  show StableHlo.after hostOps0 (W0 m ρ c) (Proc.devRef .tc main_arg6) = _
  after_results_simp
theorem W1_arg7 (c : Dev nD) : W1 m ρ c (Proc.devRef .tc main_arg7) = a7 m c := by
  show StableHlo.after hostOps0 (W0 m ρ c) (Proc.devRef .tc main_arg7) = _
  after_results_simp
theorem W1_arg8 (c : Dev nD) : W1 m ρ c (Proc.devRef .tc main_arg8) = a8 m c := by
  show StableHlo.after hostOps0 (W0 m ρ c) (Proc.devRef .tc main_arg8) = _
  after_results_simp
theorem W1_arg9 (c : Dev nD) : W1 m ρ c (Proc.devRef .tc main_arg9) = a9 m c := by
  show StableHlo.after hostOps0 (W0 m ρ c) (Proc.devRef .tc main_arg9) = _
  after_results_simp

/-! ## After the first region -/

/-- The first region's output is the reference's first layer. -/
theorem W2_v28 (c : Dev nD) : W2 m ρ c (Proc.devRef .tc main_v28) = val_main_v36 (F := Ideal) (a0 m c) (a1 m c) (a2 m c) (a4 m c) (a5 m c) :=
  (W2_arr m ρ c 5).trans ((Region0.final0 (V1 m ρ) c).trans (by
    rw [V1_v26 m ρ c, V1_v13 m ρ c, V1_v14 m ρ c, V1_arg4 m ρ c, V1_v27 m ρ c]
    exact (layer1_eq _ _ _ _ _).symm))
/-- The degree columns pass through the region (it only reads them). -/
theorem W2_v13 (c : Dev nD) : W2 m ρ c (Proc.devRef .tc main_v13) = val_main_v13 (F := Ideal) (a1 m c) :=
  (W2_arr m ρ c 1).trans (((dat0 (V1 m ρ) c).arrAt_in 1 rfl _).trans ((A_eq0 (V1 m ρ) c 1).trans (V1_v13 m ρ c)))
theorem W2_v14 (c : Dev nD) : W2 m ρ c (Proc.devRef .tc main_v14) = val_main_v26 (F := Ideal) (a2 m c) :=
  (W2_arr m ρ c 2).trans (((dat0 (V1 m ρ) c).arrAt_in 2 rfl _).trans ((A_eq0 (V1 m ρ) c 2).trans (V1_v14 m ρ c)))
theorem W2_arg1 (c : Dev nD) : W2 m ρ c (Proc.devRef .tc main_arg1) = a1 m c :=
  (W2_of_ne m ρ c main_arg1 (by decide)).trans (W1_arg1 m ρ c)
theorem W2_arg2 (c : Dev nD) : W2 m ρ c (Proc.devRef .tc main_arg2) = a2 m c :=
  (W2_of_ne m ρ c main_arg2 (by decide)).trans (W1_arg2 m ρ c)
theorem W2_arg3 (c : Dev nD) : W2 m ρ c (Proc.devRef .tc main_arg3) = a3 m c :=
  (W2_of_ne m ρ c main_arg3 (by decide)).trans (W1_arg3 m ρ c)
theorem W2_arg6 (c : Dev nD) : W2 m ρ c (Proc.devRef .tc main_arg6) = a6 m c :=
  (W2_of_ne m ρ c main_arg6 (by decide)).trans (W1_arg6 m ρ c)
theorem W2_arg7 (c : Dev nD) : W2 m ρ c (Proc.devRef .tc main_arg7) = a7 m c :=
  (W2_of_ne m ρ c main_arg7 (by decide)).trans (W1_arg7 m ρ c)
theorem W2_arg8 (c : Dev nD) : W2 m ρ c (Proc.devRef .tc main_arg8) = a8 m c :=
  (W2_of_ne m ρ c main_arg8 (by decide)).trans (W1_arg8 m ρ c)
theorem W2_arg9 (c : Dev nD) : W2 m ρ c (Proc.devRef .tc main_arg9) = a9 m c :=
  (W2_of_ne m ρ c main_arg9 (by decide)).trans (W1_arg9 m ρ c)

/-! ## The second stretch: the first layer gathered along the sources and summed into the destinations -/

theorem V3_v38 (c : Dev nD) : V3 m ρ c main_v38 = val_main_v46 (F := Ideal) (a0 m c) (a1 m c) (a2 m c) (a4 m c) (a5 m c) :=
  ((stretch1 (W2 m ρ c)).trans (congr (congr (congrArg edgeSum (W2_v28 m ρ c)) (W2_arg1 m ρ c)) (W2_arg2 m ρ c))).trans
    (ref_edge2 _ _ _ _ _).symm
theorem V3_v13 (c : Dev nD) : V3 m ρ c main_v13 = val_main_v13 (F := Ideal) (a1 m c) := by
  show StableHlo.after hostOps1 (W2 m ρ c) (Proc.devRef .tc main_v13) = _
  after_results
  exact W2_v13 m ρ c
theorem V3_v14 (c : Dev nD) : V3 m ρ c main_v14 = val_main_v26 (F := Ideal) (a2 m c) := by
  show StableHlo.after hostOps1 (W2 m ρ c) (Proc.devRef .tc main_v14) = _
  after_results
  exact W2_v14 m ρ c
theorem V3_arg6 (c : Dev nD) : V3 m ρ c main_arg6 = a6 m c := by
  show StableHlo.after hostOps1 (W2 m ρ c) (Proc.devRef .tc main_arg6) = _
  after_results
  exact W2_arg6 m ρ c
theorem V3_v39 (c : Dev nD) : V3 m ρ c main_v39 = val_main_v51 (F := Ideal) (a7 m c) := by
  show StableHlo.after hostOps1 (W2 m ρ c) (Proc.devRef .tc main_v39) = _
  after_results
  rw [W2_arg7 m ρ c]
  exact row64' (a7 m c)
theorem W3_arg1 (c : Dev nD) : W3 m ρ c (Proc.devRef .tc main_arg1) = a1 m c := by
  show StableHlo.after hostOps1 (W2 m ρ c) (Proc.devRef .tc main_arg1) = _
  after_results
  exact W2_arg1 m ρ c
theorem W3_arg2 (c : Dev nD) : W3 m ρ c (Proc.devRef .tc main_arg2) = a2 m c := by
  show StableHlo.after hostOps1 (W2 m ρ c) (Proc.devRef .tc main_arg2) = _
  after_results
  exact W2_arg2 m ρ c
theorem W3_arg3 (c : Dev nD) : W3 m ρ c (Proc.devRef .tc main_arg3) = a3 m c := by
  show StableHlo.after hostOps1 (W2 m ρ c) (Proc.devRef .tc main_arg3) = _
  after_results
  exact W2_arg3 m ρ c
theorem W3_arg8 (c : Dev nD) : W3 m ρ c (Proc.devRef .tc main_arg8) = a8 m c := by
  show StableHlo.after hostOps1 (W2 m ρ c) (Proc.devRef .tc main_arg8) = _
  after_results
  exact W2_arg8 m ρ c
theorem W3_arg9 (c : Dev nD) : W3 m ρ c (Proc.devRef .tc main_arg9) = a9 m c := by
  show StableHlo.after hostOps1 (W2 m ρ c) (Proc.devRef .tc main_arg9) = _
  after_results
  exact W2_arg9 m ρ c

/-! ## After the second region -/

/-- The second region's output is the reference's second layer. -/
theorem W4_v40 (c : Dev nD) : W4 m ρ c (Proc.devRef .tc main_v40) = val_main_v57 (F := Ideal) (a0 m c) (a1 m c) (a2 m c) (a4 m c) (a5 m c) (a6 m c) (a7 m c) :=
  (W4_arr m ρ c 5).trans ((Region1.final1 (V3 m ρ) c).trans (by
    rw [V3_v38 m ρ c, V3_v13 m ρ c, V3_v14 m ρ c, V3_arg6 m ρ c, V3_v39 m ρ c]
    exact (layer2_eq _ _ _ _ _ _ _).symm))
theorem W4_v14 (c : Dev nD) : W4 m ρ c (Proc.devRef .tc main_v14) = val_main_v26 (F := Ideal) (a2 m c) :=
  (W4_arr m ρ c 2).trans (((dat1 (V3 m ρ) c).arrAt_in 2 rfl _).trans ((A_eq1 (V3 m ρ) c 2).trans (V3_v14 m ρ c)))
theorem W4_arg1 (c : Dev nD) : W4 m ρ c (Proc.devRef .tc main_arg1) = a1 m c :=
  (W4_of_ne m ρ c main_arg1 (by decide)).trans (W3_arg1 m ρ c)
theorem W4_arg2 (c : Dev nD) : W4 m ρ c (Proc.devRef .tc main_arg2) = a2 m c :=
  (W4_of_ne m ρ c main_arg2 (by decide)).trans (W3_arg2 m ρ c)
theorem W4_arg3 (c : Dev nD) : W4 m ρ c (Proc.devRef .tc main_arg3) = a3 m c :=
  (W4_of_ne m ρ c main_arg3 (by decide)).trans (W3_arg3 m ρ c)
theorem W4_arg8 (c : Dev nD) : W4 m ρ c (Proc.devRef .tc main_arg8) = a8 m c :=
  (W4_of_ne m ρ c main_arg8 (by decide)).trans (W3_arg8 m ρ c)
theorem W4_arg9 (c : Dev nD) : W4 m ρ c (Proc.devRef .tc main_arg9) = a9 m c :=
  (W4_of_ne m ρ c main_arg9 (by decide)).trans (W3_arg9 m ρ c)

/-! ## The third stretch: the second layer gathered and summed -/

theorem V5_v50 (c : Dev nD) : V5 m ρ c main_v50 = val_main_v67 (F := Ideal) (a0 m c) (a1 m c) (a2 m c) (a4 m c) (a5 m c) (a6 m c) (a7 m c) :=
  ((stretch2 (W4 m ρ c)).trans (congr (congr (congrArg edgeSum (W4_v40 m ρ c)) (W4_arg1 m ρ c)) (W4_arg2 m ρ c))).trans
    (ref_edge3 _ _ _ _ _ _ _).symm
theorem V5_v14 (c : Dev nD) : V5 m ρ c main_v14 = val_main_v26 (F := Ideal) (a2 m c) := by
  show StableHlo.after hostOps2 (W4 m ρ c) (Proc.devRef .tc main_v14) = _
  after_results
  exact W4_v14 m ρ c
theorem V5_arg8 (c : Dev nD) : V5 m ρ c main_arg8 = a8 m c := by
  show StableHlo.after hostOps2 (W4 m ρ c) (Proc.devRef .tc main_arg8) = _
  after_results
  exact W4_arg8 m ρ c
theorem V5_arg3 (c : Dev nD) : V5 m ρ c main_arg3 = a3 m c := by
  show StableHlo.after hostOps2 (W4 m ρ c) (Proc.devRef .tc main_arg3) = _
  after_results
  exact W4_arg3 m ρ c
theorem V5_v51 (c : Dev nD) : V5 m ρ c main_v51 = val_main_v72 (F := Ideal) (a9 m c) := by
  show StableHlo.after hostOps2 (W4 m ρ c) (Proc.devRef .tc main_v51) = _
  after_results
  rw [W4_arg9 m ρ c]
  exact row32 (a9 m c)

/-! ## After the last region: the two results -/

/-- The mean array is the reference's mean. -/
theorem W6_mean (c : Dev nD) : W6 m ρ c (Proc.devRef .tc main_v52_0) = val_main_v74 (F := Ideal) (a0 m c) (a1 m c) (a2 m c) (a4 m c) (a5 m c) (a6 m c) (a7 m c) (a8 m c) (a9 m c) :=
  (W6_arr m ρ c 5).trans ((Region2.final2_mean (V5 m ρ) c).trans (by
    rw [V5_v50 m ρ c, V5_v14 m ρ c, V5_arg8 m ρ c, V5_v51 m ρ c]
    exact (mean_eq _ _ _ _ _ _ _ _ _).symm))
/-- The sample array is the reference's sample. -/
theorem W6_sample (c : Dev nD) : W6 m ρ c (Proc.devRef .tc main_v52_1) = val_main_v97 (F := Ideal) (a0 m c) (a1 m c) (a2 m c) (a3 m c) (a4 m c) (a5 m c) (a6 m c) (a7 m c) (a8 m c) (a9 m c) :=
  (W6_arr m ρ c 6).trans ((Region2.final2_sample (V5 m ρ) c).trans (by
    rw [V5_v50 m ρ c, V5_v14 m ρ c, V5_arg8 m ρ c, V5_v51 m ρ c, V5_arg3 m ρ c]
    exact (sample_eq _ _ _ _ _ _ _ _ _ _).symm))

end Cert.KernelIdeal.Chain

end
-- ==== Proof.KernelValue.lean ====
/-
  The idealized kernel program's run, with its two result arrays at the reference's stages of the arguments: the
  sample array at the reference's sample, the mean array at the reference's mean, the arguments as launched.
-/
import proofs.«143272_j26268019983050_1_alg».proof.Proof.KernelRun
import proofs.«143272_j26268019983050_1_alg».proof.Proof.KernelChain

noncomputable section

namespace Cert.KernelIdeal.RunValue

open Cert.KernelIdeal Cert.KernelIdeal.Gen Cert.KernelIdeal.GenP Cert.KernelIdeal.Chain
open Idealize.ShloMosaic Idealize.ShloMosaic.TcCoe Idealize.SL.Sem
open Cert.ReferenceIdeal.Read (val_main_v74 val_main_v97)

variable (m : (ℓ : Loc nD τ sig) → Buf (Elt Ideal) ℓ) (ρ : Dev nD → PrngReg)

/-- Every weakly fair execution of the idealized kernel program terminates, nothing faulting, with the sample array at
    the reference's sample stage and the mean array at the reference's mean stage of the launch arguments, and the
    arguments unchanged. -/
theorem run : θ_run defs (onTc (τ := τ) (main (F := Ideal))) ⟨m, fun _ => 0, ρ⟩ (fun r => ∀ c : Dev nD,
      r.2.mem ((c.tc : Thread nD τ).loc main_v52_1) = val_main_v97 (F := Ideal) (a0 m c) (a1 m c) (a2 m c) (a3 m c) (a4 m c) (a5 m c) (a6 m c) (a7 m c) (a8 m c) (a9 m c)
      ∧ r.2.mem ((c.tc : Thread nD τ).loc main_v52_0) = val_main_v74 (F := Ideal) (a0 m c) (a1 m c) (a2 m c) (a4 m c) (a5 m c) (a6 m c) (a7 m c) (a8 m c) (a9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W6_sample m ρ c), (h c).2.1.trans (W6_mean m ρ c), (h c).2.2⟩)
    (Cert.KernelIdeal.Run.run_boundary m ρ)

end Cert.KernelIdeal.RunValue

end
-- ==== Proof.lean ====
/-
  The graph network's kernel program against its reference, over the extended reals.

  Both programs compute, for a graph of 100000 nodes and 1600000 edges, three rounds of "scale each node's features
  by its out-degree factor, sum them over the incoming edges, scale by the in-degree factor, apply a dense layer",
  with tanh after the first round and the positive part after the second; the third round's value is the mean, and the
  sample is mean + exp(mean) · eps. The kernel program runs each round's dense part in a block-tiled region and keeps
  the edge sums on the host; the reference is host operations only, and computes the last round twice, once as the
  mean and once as the log-deviation, from the same operands.
  The two are the same function of the arguments, operation for operation: each region's output array is the
  layer function of the arrays it finds (a block of rows at a time), each stretch of the reference between two edge
  sums is the same layer function of the same operands, and the edge sums are the same host operations on both sides.
  No law of arithmetic beyond that identification is used, so the finiteness of the inputs is never opened.
  The frames of the two kernel programs are the launch theorem over the programs' segments; the reference's frame is
  its run with the results dropped.
-/
import proofs.«143272_j26268019983050_1_alg».proof.Defs
import proofs.«143272_j26268019983050_1_alg».proof.Proof.Gen.Kernel
import proofs.«143272_j26268019983050_1_alg».proof.Proof.Gen.KernelIdeal
import proofs.«143272_j26268019983050_1_alg».proof.Proof.Gen.ReferenceIdeal
import proofs.«143272_j26268019983050_1_alg».proof.Proof.Gen.Pre_finite_inputs
import proofs.«143272_j26268019983050_1_alg».proof.Proof.Gen.ReferenceIdeal.Run
import proofs.«143272_j26268019983050_1_alg».proof.Proof.Gen.ReferenceIdeal.Read
import proofs.«143272_j26268019983050_1_alg».proof.Proof.KernelFrame
import proofs.«143272_j26268019983050_1_alg».proof.Proof.KernelIdealFrame
import proofs.«143272_j26268019983050_1_alg».proof.Proof.RefLayers
import proofs.«143272_j26268019983050_1_alg».proof.Proof.KernelValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference's frame: its run, the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Equal arguments give equal stages (the reference's memory agrees with the kernel program's on the arguments). -/
theorem sample_congr {x0 y0 : FVec Ideal Cert.ReferenceIdeal.S100000x64 .f32} {x1 y1 x2 y2 : IVec Cert.ReferenceIdeal.S1600000 32}
    {x3 y3 : FVec Ideal Cert.ReferenceIdeal.S100000x32 .f32} {x4 y4 : FVec Ideal Cert.ReferenceIdeal.S64x64 .f32} {x5 y5 : FVec Ideal Cert.ReferenceIdeal.S64 .f32}
    {x6 y6 : FVec Ideal Cert.ReferenceIdeal.S64x64 .f32} {x7 y7 : FVec Ideal Cert.ReferenceIdeal.S64 .f32}
    {x8 y8 : FVec Ideal Cert.ReferenceIdeal.S64x32 .f32} {x9 y9 : FVec Ideal Cert.ReferenceIdeal.S32 .f32}
    (e0 : x0 = y0) (e1 : x1 = y1) (e2 : x2 = y2) (e3 : x3 = y3) (e4 : x4 = y4) (e5 : x5 = y5) (e6 : x6 = y6) (e7 : x7 = y7)
    (e8 : x8 = y8) (e9 : x9 = y9) :
    Cert.ReferenceIdeal.Read.val_main_v97 (F := Ideal) x0 x1 x2 x3 x4 x5 x6 x7 x8 x9
      = Cert.ReferenceIdeal.Read.val_main_v97 (F := Ideal) y0 y1 y2 y3 y4 y5 y6 y7 y8 y9 := by
  cases e0; cases e1; cases e2; cases e3; cases e4; cases e5; cases e6; cases e7; cases e8; cases e9; rfl

theorem mean_congr {x0 y0 : FVec Ideal Cert.ReferenceIdeal.S100000x64 .f32} {x1 y1 x2 y2 : IVec Cert.ReferenceIdeal.S1600000 32}
    {x4 y4 : FVec Ideal Cert.ReferenceIdeal.S64x64 .f32} {x5 y5 : FVec Ideal Cert.ReferenceIdeal.S64 .f32}
    {x6 y6 : FVec Ideal Cert.ReferenceIdeal.S64x64 .f32} {x7 y7 : FVec Ideal Cert.ReferenceIdeal.S64 .f32}
    {x8 y8 : FVec Ideal Cert.ReferenceIdeal.S64x32 .f32} {x9 y9 : FVec Ideal Cert.ReferenceIdeal.S32 .f32}
    (e0 : x0 = y0) (e1 : x1 = y1) (e2 : x2 = y2) (e4 : x4 = y4) (e5 : x5 = y5) (e6 : x6 = y6) (e7 : x7 = y7)
    (e8 : x8 = y8) (e9 : x9 = y9) :
    Cert.ReferenceIdeal.Read.val_main_v74 (F := Ideal) x0 x1 x2 x4 x5 x6 x7 x8 x9
      = Cert.ReferenceIdeal.Read.val_main_v74 (F := Ideal) y0 y1 y2 y4 y5 y6 y7 y8 y9 := by
  cases e0; cases e1; cases e2; cases e4; cases e5; cases e6; cases e7; cases e8; cases e9; rfl

/-- The idealized kernel program and the idealized reference, from memories agreeing on the arguments, end with the
    same three arrays: the sample, and the mean twice (the reference's log-deviation is its mean). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v97 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1, (h c).2.1, (h c).2.1, (h c).2.2⟩)
      (Cert.KernelIdeal.RunValue.run m ρ)
  · refine (θ_run Cert.ReferenceIdeal.defs _ _).mono (fun r h c => ?_) (Cert.ReferenceIdeal.Value.run (F := Ideal) m' ρ')
    obtain ⟨h0, h1, h2, h3, h4, h5, h6, h7, h8, h9⟩ := hagree c
    refine ⟨?_, ?_, ?_, (h c).2.2.2⟩
    · exact ((h c).1.trans (Cert.ReferenceIdeal.Read.val_main_v97_eq m' c)).trans (sample_congr h0 h1 h2 h3 h4 h5 h6 h7 h8 h9)
    · exact (((h c).2.1.trans (Cert.ReferenceIdeal.Read.val_main_v94_eq m' c)).trans (Cert.ReferenceIdeal.RefValue.logdev_eq_mean _ _ _ _ _ _ _ _ _)).trans
        (mean_congr h0 h1 h2 h4 h5 h6 h7 h8 h9)
    · exact ((h c).2.2.1.trans (Cert.ReferenceIdeal.Read.val_main_v74_eq m' c)).trans (mean_congr h0 h1 h2 h4 h5 h6 h7 h8 h9)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
